-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1200000 : Shape := ⟨2, ![2, 1200000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S64 .f32) (main_arg6 : FVec F S64x40 .f32) (main_arg7 : FVec F S40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x40 .f32 := Host.absf main_arg6
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S2x1200000 32) (main_arg2 : FVec F S128x64 .f32) (main_arg3 : FVec F S64 .f32) (main_arg4 : FVec F S64x64 .f32) (main_arg5 : FVec F S64 .f32) (main_arg6 : FVec F S64x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x128 : Shape := ⟨2, ![100000, 128]⟩
abbrev S2x1200000 : Shape := ⟨2, ![2, 1200000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S1x1200000 : Shape := ⟨2, ![1, 1200000]⟩
abbrev S1200000 : Shape := ⟨1, ![1200000]⟩
abbrev S100000 : Shape := ⟨1, ![100000]⟩
abbrev S1300000 : Shape := ⟨1, ![1300000]⟩
abbrev S_ : Shape := ⟨0, ![]⟩
abbrev S1300000x1 : Shape := ⟨2, ![1300000, 1]⟩
abbrev S100000x64 : Shape := ⟨2, ![100000, 64]⟩
abbrev S10000x128 : Shape := ⟨2, ![10000, 128]⟩
abbrev S10000x64 : Shape := ⟨2, ![10000, 64]⟩
abbrev S1300000x64 : Shape := ⟨2, ![1300000, 64]⟩
abbrev S1x64 : Shape := ⟨2, ![1, 64]⟩
abbrev S100000x40 : Shape := ⟨2, ![100000, 40]⟩
abbrev S10000x40 : Shape := ⟨2, ![10000, 40]⟩
abbrev S1300000x40 : Shape := ⟨2, ![1300000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 126
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1200000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x40, .f32⟩
  | .hbm, ⟨7, _⟩ => ⟨S40, .f32⟩
  | .hbm, ⟨8, _⟩ => ⟨S1x1200000, .i32⟩
  | .hbm, ⟨9, _⟩ => ⟨S1200000, .i32⟩
  | .hbm, ⟨10, _⟩ => ⟨S1x1200000, .i32⟩
  | .hbm, ⟨11, _⟩ => ⟨S1200000, .i32⟩
  | .hbm, ⟨12, _⟩ => ⟨S100000, .i32⟩
  | .hbm, ⟨13, _⟩ => ⟨S1300000, .i32⟩
  | .hbm, ⟨14, _⟩ => ⟨S1300000, .i32⟩
  | .hbm, ⟨15, _⟩ => ⟨S_, .f32⟩
  | .hbm, ⟨16, _⟩ => ⟨S100000, .f32⟩
  | .hbm, ⟨17, _⟩ => ⟨S_, .i32⟩
  | .hbm, ⟨18, _⟩ => ⟨S1300000, .i32⟩
  | .hbm, ⟨19, _⟩ => ⟨S1300000, .i1⟩
  | .hbm, ⟨20, _⟩ => ⟨S_, .i32⟩
  | .hbm, ⟨21, _⟩ => ⟨S1300000, .i32⟩
  | .hbm, ⟨22, _⟩ => ⟨S1300000, .i32⟩
  | .hbm, ⟨23, _⟩ => ⟨S1300000, .i32⟩
  | .hbm, ⟨24, _⟩ => ⟨S1300000x1, .i32⟩
  | .hbm, ⟨25, _⟩ => ⟨S_, .f32⟩
  | .hbm, ⟨26, _⟩ => ⟨S1300000, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1300000, .i32⟩
  | .hbm, ⟨31, _⟩ => ⟨S1300000, .i1⟩
  | .hbm, ⟨32, _⟩ => ⟨S_, .i32⟩
  | .hbm, ⟨33, _⟩ => ⟨S1300000, .i32⟩
  | .hbm, ⟨34, _⟩ => ⟨S1300000, .i32⟩
  | .hbm, ⟨35, _⟩ => ⟨S1300000, .i32⟩
  | .hbm, ⟨36, _⟩ => ⟨S1300000x1, .i32⟩
  | .hbm, ⟨37, _⟩ => ⟨S1300000, .f32⟩
  | .hbm, ⟨38, _⟩ => ⟨S_, .i32⟩
  | .hbm, ⟨39, _⟩ => ⟨S1300000, .i32⟩
  | .hbm, ⟨40, _⟩ => ⟨S1300000, .i1⟩
  | .hbm, ⟨41, _⟩ => ⟨S_, .i32⟩
  | .hbm, ⟨42, _⟩ => ⟨S1300000, .i32⟩
  | .hbm, ⟨43, _⟩ => ⟨S1300000, .i32⟩
  | .hbm, ⟨44, _⟩ => ⟨S1300000, .i32⟩
  | .hbm, ⟨45, _⟩ => ⟨S1300000x1, .i32⟩
  | .hbm, ⟨46, _⟩ => ⟨S1300000, .f32⟩
  | .hbm, ⟨47, _⟩ => ⟨S1300000, .f32⟩
  | .hbm, ⟨48, _⟩ => ⟨S100000x64, .f32⟩
  | .hbm, ⟨49, _⟩ => ⟨S_, .i32⟩
  | .hbm, ⟨50, _⟩ => ⟨S1300000, .i32⟩
  | .hbm, ⟨51, _⟩ => ⟨S1300000, .i1⟩
  | .hbm, ⟨52, _⟩ => ⟨S_, .i32⟩
  | .hbm, ⟨53, _⟩ => ⟨S1300000, .i32⟩
  | .hbm, ⟨54, _⟩ => ⟨S1300000, .i32⟩
  | .hbm, ⟨55, _⟩ => ⟨S1300000, .i32⟩
  | .hbm, ⟨56, _⟩ => ⟨S1300000x1, .i32⟩
  | .hbm, ⟨57, _⟩ => ⟨S1300000x64, .f32⟩
  | .hbm, ⟨58, _⟩ => ⟨S1300000x1, .f32⟩
  | .hbm, ⟨59, _⟩ => ⟨S1300000x64, .f32⟩
  | .hbm, ⟨60, _⟩ => ⟨S1300000x64, .f32⟩
  | .hbm, ⟨61, _⟩ => ⟨S_, .f32⟩
  | .hbm, ⟨62, _⟩ => ⟨S100000x64, .f32⟩
  | .hbm, ⟨63, _⟩ => ⟨S_, .i32⟩
  | .hbm, ⟨64, _⟩ => ⟨S1300000, .i32⟩
  | .hbm, ⟨65, _⟩ => ⟨S1300000, .i1⟩
  | .hbm, ⟨66, _⟩ => ⟨S_, .i32⟩
  | .hbm, ⟨67, _⟩ => ⟨S1300000, .i32⟩
  | .hbm, ⟨68, _⟩ => ⟨S1300000, .i32⟩
  | .hbm, ⟨69, _⟩ => ⟨S1300000, .i32⟩
  | .hbm, ⟨70, _⟩ => ⟨S1300000x1, .i32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S_, .i32⟩
  | .hbm, ⟨76, _⟩ => ⟨S1300000, .i32⟩
  | .hbm, ⟨77, _⟩ => ⟨S1300000, .i1⟩
  | .hbm, ⟨78, _⟩ => ⟨S_, .i32⟩
  | .hbm, ⟨79, _⟩ => ⟨S1300000, .i32⟩
  | .hbm, ⟨80, _⟩ => ⟨S1300000, .i32⟩
  | .hbm, ⟨81, _⟩ => ⟨S1300000, .i32⟩
  | .hbm, ⟨82, _⟩ => ⟨S1300000x1, .i32⟩
  | .hbm, ⟨83, _⟩ => ⟨S1300000x64, .f32⟩
  | .hbm, ⟨84, _⟩ => ⟨S1300000x1, .f32⟩
  | .hbm, ⟨85, _⟩ => ⟨S1300000x64, .f32⟩
  | .hbm, ⟨86, _⟩ => ⟨S1300000x64, .f32⟩
  | .hbm, ⟨87, _⟩ => ⟨S_, .f32⟩
  | .hbm, ⟨88, _⟩ => ⟨S100000x64, .f32⟩
  | .hbm, ⟨89, _⟩ => ⟨S_, .i32⟩
  | .hbm, ⟨90, _⟩ => ⟨S1300000, .i32⟩
  | .hbm, ⟨91, _⟩ => ⟨S1300000, .i1⟩
  | .hbm, ⟨92, _⟩ => ⟨S_, .i32⟩
  | .hbm, ⟨93, _⟩ => ⟨S1300000, .i32⟩
  | .hbm, ⟨94, _⟩ => ⟨S1300000, .i32⟩
  | .hbm, ⟨95, _⟩ => ⟨S1300000, .i32⟩
  | .hbm, ⟨96, _⟩ => ⟨S1300000x1, .i32⟩
  | .hbm, ⟨97, _⟩ => ⟨S100000x64, .f32⟩
  | .hbm, ⟨98, _⟩ => ⟨S1x64, .f32⟩
  | .hbm, ⟨99, _⟩ => ⟨S100000x64, .f32⟩
  | .hbm, ⟨100, _⟩ => ⟨S100000x40, .f32⟩
  | .hbm, ⟨101, _⟩ => ⟨S_, .i32⟩
  | .hbm, ⟨102, _⟩ => ⟨S1300000, .i32⟩
  | .hbm, ⟨103, _⟩ => ⟨S1300000, .i1⟩
  | .hbm, ⟨104, _⟩ => ⟨S_, .i32⟩
  | .hbm, ⟨105, _⟩ => ⟨S1300000, .i32⟩
  | .hbm, ⟨106, _⟩ => ⟨S1300000, .i32⟩
  | .hbm, ⟨107, _⟩ => ⟨S1300000, .i32⟩
  | .hbm, ⟨108, _⟩ => ⟨S1300000x1, .i32⟩
  | .hbm, ⟨109, _⟩ => ⟨S1300000x40, .f32⟩
  | .hbm, ⟨110, _⟩ => ⟨S1300000x1, .f32⟩
  | .hbm, ⟨111, _⟩ => ⟨S1300000x40, .f32⟩
  | .hbm, ⟨112, _⟩ => ⟨S1300000x40, .f32⟩
  | .hbm, ⟨113, _⟩ => ⟨S_, .f32⟩
  | .hbm, ⟨114, _⟩ => ⟨S100000x40, .f32⟩
  | .hbm, ⟨115, _⟩ => ⟨S_, .i32⟩
  | .hbm, ⟨116, _⟩ => ⟨S1300000, .i32⟩
  | .hbm, ⟨117, _⟩ => ⟨S1300000, .i1⟩
  | .hbm, ⟨118, _⟩ => ⟨S_, .i32⟩
  | .hbm, ⟨119, _⟩ => ⟨S1300000, .i32⟩
  | .hbm, ⟨120, _⟩ => ⟨S1300000, .i32⟩
  | .hbm, ⟨121, _⟩ => ⟨S1300000, .i32⟩
  | .hbm, ⟨122, _⟩ => ⟨S1300000x1, .i32⟩
  | .hbm, ⟨123, _⟩ => ⟨S100000x40, .f32⟩
  | .hbm, ⟨124, _⟩ => ⟨S1x40, .f32⟩
  | .hbm, ⟨125, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x40, .f32⟩
  | .local _ .vmem, ⟨23, _⟩ => ⟨S10000x40, .f32⟩
  | .local _ .vmem, ⟨24, _⟩ => ⟨S10000x40, .f32⟩
  | .local _ .vmem, ⟨25, _⟩ => ⟨S10000x40, .f32⟩
  | .local _ .vmem, ⟨26, _⟩ => ⟨S10000x40, .f32⟩
  | .local _ .vmem, ⟨27, _⟩ => ⟨S1x40, .f32⟩
  | .local _ .vmem, ⟨28, _⟩ => ⟨S10000x40, .f32⟩
  | .local _ .vmem, ⟨29, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_c_9 : Ref sig .tc := ⟨.hbm, 63, rfl⟩
abbrev main_v44 : Ref sig .tc := ⟨.hbm, 64, rfl⟩
abbrev main_v45 : Ref sig .tc := ⟨.hbm, 65, rfl⟩
abbrev main_c_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_11 : Ref sig .tc := ⟨.hbm, 75, rfl⟩
abbrev main_v54 : Ref sig .tc := ⟨.hbm, 76, rfl⟩
abbrev main_v55 : Ref sig .tc := ⟨.hbm, 77, rfl⟩
abbrev main_c_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_13 : Ref sig .tc := ⟨.hbm, 87, rfl⟩
abbrev main_v64 : Ref sig .tc := ⟨.hbm, 88, rfl⟩
abbrev main_c_14 : Ref sig .tc := ⟨.hbm, 89, rfl⟩
abbrev main_v65 : Ref sig .tc := ⟨.hbm, 90, rfl⟩
abbrev main_v66 : Ref sig .tc := ⟨.hbm, 91, rfl⟩
abbrev main_c_15 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_c_16 : Ref sig .tc := ⟨.hbm, 101, rfl⟩
abbrev main_v75 : Ref sig .tc := ⟨.hbm, 102, rfl⟩
abbrev main_v76 : Ref sig .tc := ⟨.hbm, 103, rfl⟩
abbrev main_c_17 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_18 : Ref sig .tc := ⟨.hbm, 113, rfl⟩
abbrev main_v85 : Ref sig .tc := ⟨.hbm, 114, rfl⟩
abbrev main_c_19 : Ref sig .tc := ⟨.hbm, 115, rfl⟩
abbrev main_v86 : Ref sig .tc := ⟨.hbm, 116, rfl⟩
abbrev main_v87 : Ref sig .tc := ⟨.hbm, 117, rfl⟩
abbrev main_c_20 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  concatenates_S1200000_S100000_S1300000_d0 : Shape.Concatenates [S1200000, S100000] S1300000 0
  bcast_S_S100000 : S_.BroadcastsInDim S100000 (![] : Fin 0 → Fin S100000.rank)
  bcast_S_S1300000 : S_.BroadcastsInDim S1300000 (![] : Fin 0 → Fin S1300000.rank)
  bcast_S1300000_S1300000x1_0 : S1300000.BroadcastsInDim S1300000x1 (![0] : Fin 1 → Fin S1300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  inb_S64x40_S64x40_0_0 : ∀ a, (![0, 0] : Fin 2 → Nat) a + S64x40.size a ≤ S64x40.size a
  h_S64x40 : 0 < S64x40.numel
  inb_S10000x40_S10000x40_0_0 : ∀ a, (![0, 0] : Fin 2 → Nat) a + S10000x40.size a ≤ S10000x40.size a
  h_S10000x40 : 0 < S10000x40.numel
  bcast_S1300000x1_S1300000x40_0_1 : S1300000x1.BroadcastsInDim S1300000x40 (![0, 1] : Fin 2 → Fin S1300000x40.rank)
  bcast_S_S100000x40 : S_.BroadcastsInDim S100000x40 (![] : Fin 0 → Fin S100000x40.rank)
  shapeCasts_S40_S1x40 : S40.ShapeCasts S1x40
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S10000x128_S128x64_S10000x64_1_0_0_1_n_n_wf : DotDims.WF S10000x128 S128x64 S10000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S10000x64_S64x64_S10000x64_1_0_0_1_n_n_wf : DotDims.WF S10000x64 S64x64 S10000x64 [1] [0] [0] [1] [] []
  dot_S10000x64_S64x40_S10000x40_1_0_0_1_n_n_wf : DotDims.WF S10000x64 S64x40 S10000x40 [1] [0] [0] [1] [] []
  gather_S100000x40_S1300000x1_S1300000x40_1_0_n_n_0_1_140_wf : GatherDims.WF S100000x40 S1300000x1 S1300000x40 [1] [0] [] [0] [] 1 ![1, 40]
  scatter_S100000x40_S1300000x1_S1300000x40_1_0_0_1_wf : ScatterDims.WF S100000x40 S1300000x1 S1300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x40.size a ≤ S64x40.size a
  hwx4_1 : ∀ i : grid4.Coords, EltTy.bits .f32 = 32 ∨ (Rect.block (s := S64x40) S64x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x40.size a ≤ S100000x40.size a
  hwx4_2 : ∀ i : grid4.Coords, EltTy.bits .f32 = 32 ∨ (Rect.block (s := S100000x40) S10000x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x40.size a ≤ S100000x40.size a
  hwx5_0 : ∀ i : grid5.Coords, EltTy.bits .f32 = 32 ∨ (Rect.block (s := S100000x40) S10000x40.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x40.size a ≤ S1x40.size a
  hwx5_1 : ∀ i : grid5.Coords, EltTy.bits .f32 = 32 ∨ (Rect.block (s := S1x40) S1x40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x40.size a ≤ S100000x40.size a
  hwx5_2 : ∀ i : grid5.Coords, EltTy.bits .f32 = 32 ∨ (Rect.block (s := S100000x40) S10000x40.size (cc5_transform_2 i) (hinb5_2 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def gather_S100000x40_S1300000x1_S1300000x40_1_0_n_n_0_1_140 : GatherDims S100000x40 S1300000x1 S1300000x40 where
  offsetDims := [1]
  collapsedSliceDims := [0]
  operandBatchingDims := []
  startIndicesBatchingDims := []
  startIndexMap := [0]
  indexVectorDim := 1
  sliceSizes := ![1, 40]
  wf := gather_S100000x40_S1300000x1_S1300000x40_1_0_n_n_0_1_140_wf
def scatter_S100000x40_S1300000x1_S1300000x40_1_0_0_1 : ScatterDims S100000x40 S1300000x1 S1300000x40 where
  updateWindowDims := [1]
  insertedWindowDims := [0]
  scatterDimsToOperandDims := [0]
  indexVectorDim := 1
  wf := scatter_S100000x40_S1300000x1_S1300000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v52) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v71) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v73) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v73) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v74) S10000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v92) S10000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v93) S1x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v94) S10000x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1200000 : Shape := ⟨2, ![2, 1200000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S1x1200000 : Shape := ⟨2, ![1, 1200000]⟩
abbrev S1200000 : Shape := ⟨1, ![1200000]⟩
abbrev S100000x64 : Shape := ⟨2, ![100000, 64]⟩
abbrev S100000 : Shape := ⟨1, ![100000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩
abbrev S100000x40 : Shape := ⟨2, ![100000, 40]⟩
abbrev S1300000x40 : Shape := ⟨2, ![1300000, 40]⟩
abbrev S1x40 : Shape := ⟨2, ![1, 40]⟩
abbrev S100000x1 : Shape := ⟨2, ![100000, 1]⟩

abbrev nBuf : Space → Nat
  | .hbm => 222
  | .vmem => 0
  | .smem => 0
  | _ => 0

abbrev hbmTy0_0 (i : Nat) : BufTy := match i % 128 with
  | 0 => ⟨S100000x128, .f32⟩
  | 1 => ⟨S2x1200000, .i32⟩
  | 2 => ⟨S128x64, .f32⟩
  | 3 => ⟨S64, .f32⟩
  | 4 => ⟨S64x64, .f32⟩
  | 5 => ⟨S64, .f32⟩
  | 6 => ⟨S64x40, .f32⟩
  | 7 => ⟨S40, .f32⟩
  | 8 => ⟨S1x1200000, .i32⟩
  | 9 => ⟨S1200000, .i32⟩
  | 10 => ⟨S1x1200000, .i32⟩
  | 11 => ⟨S1200000, .i32⟩
  | 12 => ⟨S100000x64, .f32⟩
  | 13 => ⟨S100000, .i32⟩
  | 14 => ⟨S1300000, .i32⟩
  | 15 => ⟨S1300000, .i32⟩
  | 16 => ⟨S_, .f32⟩
  | 17 => ⟨S100000, .f32⟩
  | 18 => ⟨S_, .i32⟩
  | 19 => ⟨S1300000, .i32⟩
  | 20 => ⟨S1300000, .i1⟩
  | 21 => ⟨S_, .i32⟩
  | 22 => ⟨S1300000, .i32⟩
  | 23 => ⟨S1300000, .i32⟩
  | 24 => ⟨S1300000, .i32⟩
  | 25 => ⟨S1300000x1, .i32⟩
  | 26 => ⟨S_, .f32⟩
  | 27 => ⟨S1300000, .f32⟩
  | 28 => ⟨S100000, .f32⟩
  | 29 => ⟨S100000, .f32⟩
  | 30 => ⟨S_, .i32⟩
  | 31 => ⟨S1300000, .i32⟩
  | 32 => ⟨S1300000, .i1⟩
  | 33 => ⟨S_, .i32⟩
  | 34 => ⟨S1300000, .i32⟩
  | 35 => ⟨S1300000, .i32⟩
  | 36 => ⟨S1300000, .i32⟩
  | 37 => ⟨S1300000x1, .i32⟩
  | 38 => ⟨S1300000, .f32⟩
  | 39 => ⟨S_, .i32⟩
  | 40 => ⟨S1300000, .i32⟩
  | 41 => ⟨S1300000, .i1⟩
  | 42 => ⟨S_, .i32⟩
  | 43 => ⟨S1300000, .i32⟩
  | 44 => ⟨S1300000, .i32⟩
  | 45 => ⟨S1300000, .i32⟩
  | 46 => ⟨S1300000x1, .i32⟩
  | 47 => ⟨S1300000, .f32⟩
  | 48 => ⟨S1300000, .f32⟩
  | 49 => ⟨S_, .i32⟩
  | 50 => ⟨S1300000, .i32⟩
  | 51 => ⟨S1300000, .i1⟩
  | 52 => ⟨S_, .i32⟩
  | 53 => ⟨S1300000, .i32⟩
  | 54 => ⟨S1300000, .i32⟩
  | 55 => ⟨S1300000, .i32⟩
  | 56 => ⟨S1300000x1, .i32⟩
  | 57 => ⟨S1300000x64, .f32⟩
  | 58 => ⟨S1300000x1, .f32⟩
  | 59 => ⟨S1300000x64, .f32⟩
  | 60 => ⟨S1300000x64, .f32⟩
  | 61 => ⟨S_, .f32⟩
  | 62 => ⟨S100000x64, .f32⟩
  | 63 => ⟨S_, .i32⟩
  | 64 => ⟨S1300000, .i32⟩
  | 65 => ⟨S1300000, .i1⟩
  | 66 => ⟨S_, .i32⟩
  | 67 => ⟨S1300000, .i32⟩
  | 68 => ⟨S1300000, .i32⟩
  | 69 => ⟨S1300000, .i32⟩
  | 70 => ⟨S1300000x1, .i32⟩
  | 71 => ⟨S100000x64, .f32⟩
  | 72 => ⟨S1x64, .f32⟩
  | 73 => ⟨S100000x64, .f32⟩
  | 74 => ⟨S100000x64, .f32⟩
  | 75 => ⟨S_, .f32⟩
  | 76 => ⟨S100000x64, .f32⟩
  | 77 => ⟨S100000x64, .f32⟩
  | 78 => ⟨S100000x64, .f32⟩
  | 79 => ⟨S100000, .i32⟩
  | 80 => ⟨S1300000, .i32⟩
  | 81 => ⟨S1300000, .i32⟩
  | 82 => ⟨S_, .f32⟩
  | 83 => ⟨S100000, .f32⟩
  | 84 => ⟨S_, .i32⟩
  | 85 => ⟨S1300000, .i32⟩
  | 86 => ⟨S1300000, .i1⟩
  | 87 => ⟨S_, .i32⟩
  | 88 => ⟨S1300000, .i32⟩
  | 89 => ⟨S1300000, .i32⟩
  | 90 => ⟨S1300000, .i32⟩
  | 91 => ⟨S1300000x1, .i32⟩
  | 92 => ⟨S_, .f32⟩
  | 93 => ⟨S1300000, .f32⟩
  | 94 => ⟨S100000, .f32⟩
  | 95 => ⟨S100000, .f32⟩
  | 96 => ⟨S_, .i32⟩
  | 97 => ⟨S1300000, .i32⟩
  | 98 => ⟨S1300000, .i1⟩
  | 99 => ⟨S_, .i32⟩
  | 100 => ⟨S1300000, .i32⟩
  | 101 => ⟨S1300000, .i32⟩
  | 102 => ⟨S1300000, .i32⟩
  | 103 => ⟨S1300000x1, .i32⟩
  | 104 => ⟨S1300000, .f32⟩
  | 105 => ⟨S_, .i32⟩
  | 106 => ⟨S1300000, .i32⟩
  | 107 => ⟨S1300000, .i1⟩
  | 108 => ⟨S_, .i32⟩
  | 109 => ⟨S1300000, .i32⟩
  | 110 => ⟨S1300000, .i32⟩
  | 111 => ⟨S1300000, .i32⟩
  | 112 => ⟨S1300000x1, .i32⟩
  | 113 => ⟨S1300000, .f32⟩
  | 114 => ⟨S1300000, .f32⟩
  | 115 => ⟨S_, .i32⟩
  | 116 => ⟨S1300000, .i32⟩
  | 117 => ⟨S1300000, .i1⟩
  | 118 => ⟨S_, .i32⟩
  | 119 => ⟨S1300000, .i32⟩
  | 120 => ⟨S1300000, .i32⟩
  | 121 => ⟨S1300000, .i32⟩
  | 122 => ⟨S1300000x1, .i32⟩
  | 123 => ⟨S1300000x64, .f32⟩
  | 124 => ⟨S1300000x1, .f32⟩
  | 125 => ⟨S1300000x64, .f32⟩
  | 126 => ⟨S1300000x64, .f32⟩
  | 127 => ⟨S_, .f32⟩
  | _ => ⟨S100000x128, .f32⟩

abbrev hbmTy0_1 (i : Nat) : BufTy := match i % 128 with
  | 0 => ⟨S100000x64, .f32⟩
  | 1 => ⟨S_, .i32⟩
  | 2 => ⟨S1300000, .i32⟩
  | 3 => ⟨S1300000, .i1⟩
  | 4 => ⟨S_, .i32⟩
  | 5 => ⟨S1300000, .i32⟩
  | 6 => ⟨S1300000, .i32⟩
  | 7 => ⟨S1300000, .i32⟩
  | 8 => ⟨S1300000x1, .i32⟩
  | 9 => ⟨S100000x64, .f32⟩
  | 10 => ⟨S1x64, .f32⟩
  | 11 => ⟨S100000x64, .f32⟩
  | 12 => ⟨S100000x64, .f32⟩
  | 13 => ⟨S_, .f32⟩
  | 14 => ⟨S100000x64, .f32⟩
  | 15 => ⟨S100000x64, .f32⟩
  | 16 => ⟨S100000x40, .f32⟩
  | 17 => ⟨S100000, .i32⟩
  | 18 => ⟨S1300000, .i32⟩
  | 19 => ⟨S1300000, .i32⟩
  | 20 => ⟨S_, .f32⟩
  | 21 => ⟨S100000, .f32⟩
  | 22 => ⟨S_, .i32⟩
  | 23 => ⟨S1300000, .i32⟩
  | 24 => ⟨S1300000, .i1⟩
  | 25 => ⟨S_, .i32⟩
  | 26 => ⟨S1300000, .i32⟩
  | 27 => ⟨S1300000, .i32⟩
  | 28 => ⟨S1300000, .i32⟩
  | 29 => ⟨S1300000x1, .i32⟩
  | 30 => ⟨S_, .f32⟩
  | 31 => ⟨S1300000, .f32⟩
  | 32 => ⟨S100000, .f32⟩
  | 33 => ⟨S100000, .f32⟩
  | 34 => ⟨S_, .i32⟩
  | 35 => ⟨S1300000, .i32⟩
  | 36 => ⟨S1300000, .i1⟩
  | 37 => ⟨S_, .i32⟩
  | 38 => ⟨S1300000, .i32⟩
  | 39 => ⟨S1300000, .i32⟩
  | 40 => ⟨S1300000, .i32⟩
  | 41 => ⟨S1300000x1, .i32⟩
  | 42 => ⟨S1300000, .f32⟩
  | 43 => ⟨S_, .i32⟩
  | 44 => ⟨S1300000, .i32⟩
  | 45 => ⟨S1300000, .i1⟩
  | 46 => ⟨S_, .i32⟩
  | 47 => ⟨S1300000, .i32⟩
  | 48 => ⟨S1300000, .i32⟩
  | 49 => ⟨S1300000, .i32⟩
  | 50 => ⟨S1300000x1, .i32⟩
  | 51 => ⟨S1300000, .f32⟩
  | 52 => ⟨S1300000, .f32⟩
  | 53 => ⟨S_, .i32⟩
  | 54 => ⟨S1300000, .i32⟩
  | 55 => ⟨S1300000, .i1⟩
  | 56 => ⟨S_, .i32⟩
  | 57 => ⟨S1300000, .i32⟩
  | 58 => ⟨S1300000, .i32⟩
  | 59 => ⟨S1300000, .i32⟩
  | 60 => ⟨S1300000x1, .i32⟩
  | 61 => ⟨S1300000x40, .f32⟩
  | 62 => ⟨S1300000x1, .f32⟩
  | 63 => ⟨S1300000x40, .f32⟩
  | 64 => ⟨S1300000x40, .f32⟩
  | 65 => ⟨S_, .f32⟩
  | 66 => ⟨S100000x40, .f32⟩
  | 67 => ⟨S_, .i32⟩
  | 68 => ⟨S1300000, .i32⟩
  | 69 => ⟨S1300000, .i1⟩
  | 70 => ⟨S_, .i32⟩
  | 71 => ⟨S1300000, .i32⟩
  | 72 => ⟨S1300000, .i32⟩
  | 73 => ⟨S1300000, .i32⟩
  | 74 => ⟨S1300000x1, .i32⟩
  | 75 => ⟨S100000x40, .f32⟩
  | 76 => ⟨S1x40, .f32⟩
  | 77 => ⟨S100000x40, .f32⟩
  | 78 => ⟨S100000x40, .f32⟩
  | 79 => ⟨S_, .f32⟩
  | 80 => ⟨S100000, .f32⟩
  | 81 => ⟨S_, .f32⟩
  | 82 => ⟨S100000, .f32⟩
  | 83 => ⟨S100000, .f32⟩
  | 84 => ⟨S100000x1, .f32⟩
  | 85 => ⟨S100000x40, .f32⟩
  | 86 => ⟨S100000x40, .f32⟩
  | 87 => ⟨S100000x40, .f32⟩
  | 88 => ⟨S_, .f32⟩
  | 89 => ⟨S100000, .f32⟩
  | 90 => ⟨S100000x1, .f32⟩
  | 91 => ⟨S100000x1, .f32⟩
  | 92 => ⟨S100000x40, .f32⟩
  | 93 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_c_9 : Ref sig .tc := ⟨.hbm, 63, rfl⟩
abbrev main_v44 : Ref sig .tc := ⟨.hbm, 64, rfl⟩
abbrev main_v45 : Ref sig .tc := ⟨.hbm, 65, rfl⟩
abbrev main_c_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_call0_cst : Ref sig .tc := ⟨.hbm, 75, rfl⟩
abbrev main_call0_v0 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_c_12 : Ref sig .tc := ⟨.hbm, 84, rfl⟩
abbrev main_v60 : Ref sig .tc := ⟨.hbm, 85, rfl⟩
abbrev main_v61 : Ref sig .tc := ⟨.hbm, 86, rfl⟩
abbrev main_c_13 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_15 : Ref sig .tc := ⟨.hbm, 96, rfl⟩
abbrev main_v69 : Ref sig .tc := ⟨.hbm, 97, rfl⟩
abbrev main_v70 : Ref sig .tc := ⟨.hbm, 98, rfl⟩
abbrev main_c_16 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_c_17 : Ref sig .tc := ⟨.hbm, 105, rfl⟩
abbrev main_v76 : Ref sig .tc := ⟨.hbm, 106, rfl⟩
abbrev main_v77 : Ref sig .tc := ⟨.hbm, 107, rfl⟩
abbrev main_c_18 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_c_19 : Ref sig .tc := ⟨.hbm, 115, rfl⟩
abbrev main_v84 : Ref sig .tc := ⟨.hbm, 116, rfl⟩
abbrev main_v85 : Ref sig .tc := ⟨.hbm, 117, rfl⟩
abbrev main_c_20 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_21 : Ref sig .tc := ⟨.hbm, 127, rfl⟩
abbrev main_v94 : Ref sig .tc := ⟨.hbm, 128, rfl⟩
abbrev main_c_22 : Ref sig .tc := ⟨.hbm, 129, rfl⟩
abbrev main_v95 : Ref sig .tc := ⟨.hbm, 130, rfl⟩
abbrev main_v96 : Ref sig .tc := ⟨.hbm, 131, rfl⟩
abbrev main_c_23 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_call1_cst : Ref sig .tc := ⟨.hbm, 141, rfl⟩
abbrev main_call1_v0 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_24 : Ref sig .tc := ⟨.hbm, 148, rfl⟩
abbrev main_v110 : Ref sig .tc := ⟨.hbm, 149, rfl⟩
abbrev main_c_25 : Ref sig .tc := ⟨.hbm, 150, rfl⟩
abbrev main_v111 : Ref sig .tc := ⟨.hbm, 151, rfl⟩
abbrev main_v112 : Ref sig .tc := ⟨.hbm, 152, rfl⟩
abbrev main_c_26 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_cst_27 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_c_28 : Ref sig .tc := ⟨.hbm, 162, rfl⟩
abbrev main_v120 : Ref sig .tc := ⟨.hbm, 163, rfl⟩
abbrev main_v121 : Ref sig .tc := ⟨.hbm, 164, rfl⟩
abbrev main_c_29 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_c_30 : Ref sig .tc := ⟨.hbm, 171, rfl⟩
abbrev main_v127 : Ref sig .tc := ⟨.hbm, 172, rfl⟩
abbrev main_v128 : Ref sig .tc := ⟨.hbm, 173, rfl⟩
abbrev main_c_31 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_c_32 : Ref sig .tc := ⟨.hbm, 181, rfl⟩
abbrev main_v135 : Ref sig .tc := ⟨.hbm, 182, rfl⟩
abbrev main_v136 : Ref sig .tc := ⟨.hbm, 183, rfl⟩
abbrev main_c_33 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_cst_34 : Ref sig .tc := ⟨.hbm, 193, rfl⟩
abbrev main_v145 : Ref sig .tc := ⟨.hbm, 194, rfl⟩
abbrev main_c_35 : Ref sig .tc := ⟨.hbm, 195, rfl⟩
abbrev main_v146 : Ref sig .tc := ⟨.hbm, 196, rfl⟩
abbrev main_v147 : Ref sig .tc := ⟨.hbm, 197, rfl⟩
abbrev main_c_36 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_call2_cst : Ref sig .tc := ⟨.hbm, 207, rfl⟩
abbrev main_call2_v0 : Ref sig .tc := ⟨.hbm, 208, rfl⟩
abbrev main_call2_cst_0 : Ref sig .tc := ⟨.hbm, 209, rfl⟩
abbrev main_call2_v1 : Ref sig .tc := ⟨.hbm, 210, rfl⟩
abbrev main_call2_v2 : Ref sig .tc := ⟨.hbm, 211, rfl⟩
abbrev main_call2_v3 : Ref sig .tc := ⟨.hbm, 212, rfl⟩
abbrev main_call2_v4 : Ref sig .tc := ⟨.hbm, 213, rfl⟩
abbrev main_call2_v5 : Ref sig .tc := ⟨.hbm, 214, rfl⟩
abbrev main_call2_v6 : Ref sig .tc := ⟨.hbm, 215, rfl⟩
abbrev main_call2_cst_1 : Ref sig .tc := ⟨.hbm, 216, rfl⟩
abbrev main_call2_v7 : Ref sig .tc := ⟨.hbm, 217, rfl⟩
abbrev main_call2_v8 : Ref sig .tc := ⟨.hbm, 218, rfl⟩
abbrev main_call2_v9 : Ref sig .tc := ⟨.hbm, 219, rfl⟩
abbrev main_call2_v10 : Ref sig .tc := ⟨.hbm, 220, rfl⟩
abbrev main_v156 : Ref sig .tc := ⟨.hbm, 221, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  concatenates_S1200000_S100000_S1300000_d0 : Shape.Concatenates [S1200000, S100000] S1300000 0
  bcast_S_S100000 : S_.BroadcastsInDim S100000 (![] : Fin 0 → Fin S100000.rank)
  bcast_S_S1300000 : S_.BroadcastsInDim S1300000 (![] : Fin 0 → Fin S1300000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1300000x1_S1300000x40_0_1 : S1300000x1.BroadcastsInDim S1300000x40 (![0, 1] : Fin 2 → Fin S1300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x128_S128x64_S100000x64_1_0_0_1_n_n_wf : DotDims.WF S100000x128 S128x64 S100000x64 [1] [0] [0] [1] [] []
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []
  gather_S100000x40_S1300000x1_S1300000x40_1_0_n_n_0_1_140_wf : GatherDims.WF S100000x40 S1300000x1 S1300000x40 [1] [0] [] [0] [] 1 ![1, 40]
  scatter_S100000x40_S1300000x1_S1300000x40_1_0_0_1_wf : ScatterDims.WF S100000x40 S1300000x1 S1300000x40 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1300000x1_S1300000x40_1_0_n_n_0_1_140 : GatherDims S100000x40 S1300000x1 S1300000x40 where
  offsetDims := [1]
  collapsedSliceDims := [0]
  operandBatchingDims := []
  startIndicesBatchingDims := []
  startIndexMap := [0]
  indexVectorDim := 1
  sliceSizes := ![1, 40]
  wf := gather_S100000x40_S1300000x1_S1300000x40_1_0_n_n_0_1_140_wf
def scatter_S100000x40_S1300000x1_S1300000x40_1_0_0_1 : ScatterDims S100000x40 S1300000x1 S1300000x40 where
  updateWindowDims := [1]
  insertedWindowDims := [0]
  scatterDimsToOperandDims := [0]
  indexVectorDim := 1
  wf := scatter_S100000x40_S1300000x1_S1300000x40_1_0_0_1_wf

class Facts : Prop extends Facts₀ where

variable [Facts]
-- ==== Proof.KernelRun.lean ====
/-
  The idealized kernel's run with its result named.

  @main is ten segments: four stretches of host operations and six row-blocked kernel launches. The buffers at each
  segment boundary are a fold from the launch memory (the generated `Gen.W0 … Gen.W10`); at the return every buffer
  the program does not scope holds the last boundary's contents `Gen.W10`. The generated frame keeps of this only
  that the eight arguments end as launched. Here the same run is stated with one more conjunct: the result buffer
  `main_v94` ends at `Gen.W10` read at that buffer. What that value is, as a function of the arguments, is the
  subject of the other modules.
-/
import proofs.«159919_j25795573580199_1_alg».proof.Proof.Gen.KernelIdeal.Frame

set_option maxRecDepth 16384

noncomputable section

namespace Cert.KernelIdeal.Bridge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last segment
    boundary's contents, and the arguments end as launched. -/
theorem run_result : θ_run defs (onTc (τ := τ) (main (F := F))) ⟨m, fun _ => 0, ρ⟩ (fun r => ∀ c : Dev nD,
      r.2.mem ((c.tc : Thread nD τ).loc main_v94) = W10 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v94 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Bridge

end
-- ==== Proof.GcnSpec.lean ====
/-
  The dense stages of a three-layer graph convolution, as functions of whole arrays over the extended reals, index by
  index. Nothing here mentions a program: both the row-blocked kernels and the host reference are shown elsewhere to
  compute these.

  * `rowsTimes`: a matrix product, entry (r, c) the sum over k of x(r, k) · w(k, c).
  * `biasRelu`: a row vector added to every row, then the maximum with zero.
  * `rowMax`, `biasLogSoftmax`: a row vector added to every row; from each entry of the sum y the row's maximum is
    subtracted, and then the logarithm of the row's sum of exponentials of those differences.
-/
import Idealize.ShloMosaic.PureOps.Ideal
import Idealize.ShloMosaic.PureOps.Ideal.Laws
import Idealize.ShloMosaic.Lib.ValueIdx

noncomputable section

open scoped BigOperators

namespace GcnSpec

open Idealize.ShloMosaic Idealize.ShloMosaic.ValueIdx

/-- The matrix product of an M×K by a K×N array. -/
def rowsTimes (M K N : Nat) (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A 1×N row added to every row of an M×N array, then the maximum with the value of the zero word. -/
def biasRelu (M N : Nat) (a : (⟨2, ![M, N]⟩ : Shape).Idx → EReal) (b : (⟨2, ![1, N]⟩ : Shape).Idx → EReal) :
    (⟨2, ![M, N]⟩ : Shape).Idx → EReal :=
  fun i => max (a i + b (ix2 (0 : Fin 1) (i 1))) (Ideal.ofBits .f32 0x00000000#32)

/-- A 1×N row added to every row of an M×N array. -/
def addRow (M N : Nat) (a : (⟨2, ![M, N]⟩ : Shape).Idx → EReal) (b : (⟨2, ![1, N]⟩ : Shape).Idx → EReal) :
    (⟨2, ![M, N]⟩ : Shape).Idx → EReal :=
  fun i => a i + b (ix2 (0 : Fin 1) (i 1))

/-- The maximum of row r of an M×N array, folded from the value of the word of minus infinity. -/
def rowMax (M N : Nat) (y : (⟨2, ![M, N]⟩ : Shape).Idx → EReal) (r : Fin M) : EReal :=
  (Finset.univ : Finset (Fin N)).fold max (Ideal.ofBits .f32 0xFF800000#32) (fun k => y (ix2 r k))

/-- The logarithm of the softmax along rows: entry minus its row's maximum, minus the logarithm of the row's sum of the
    exponentials of those differences. -/
def logSoftmaxRows (M N : Nat) (y : (⟨2, ![M, N]⟩ : Shape).Idx → EReal) : (⟨2, ![M, N]⟩ : Shape).Idx → EReal :=
  fun i => (y i - rowMax M N y (i 0))
    - Ideal.log (∑ k : Fin N, Ideal.exp (y (ix2 (i 0) k) - rowMax M N y (i 0)))

end GcnSpec

end
-- ==== Proof.GraphK.lean ====
/-
  The graph side of the layer, in the idealized kernel's own spelling: how the edge list becomes source and destination
  index lists with the self loops appended, the per-edge normalisation, and one aggregation over the edges. These are the
  host operations of @main between the kernel launches, grouped and named; nothing here is computed or opened.
-/
import proofs.«159919_j25795573580199_1_alg».proof.KernelIdeal
import proofs.«159919_j25795573580199_1_alg».proof.Proof.Gen.KernelIdeal
import Idealize.ShloMosaic.Lib.StableHlo.Run

noncomputable section

namespace Cert.KernelIdeal.Graph

open Idealize.ShloMosaic Idealize.ShloMosaic.TcCoe
open Cert.KernelIdeal Cert.KernelIdeal.Gen

variable {F : FTy → Type} [FloatOps F]

/-- The edge endpoints followed by the self-loop endpoints: the program's two-operand concatenation, as a plain function
    of its two operands. -/
def edgesThenLoops (a : (⟨S1200000, .i32⟩ : BufTy).Contents (Elt F)) (b : (⟨S100000, .i32⟩ : BufTy).Contents (Elt F)) :
    (⟨S1300000, .i32⟩ : BufTy).Contents (Elt F) :=
  concatenate S1300000 0 [⟨S1200000, a⟩, ⟨S100000, b⟩] concatenates_S1200000_S100000_S1300000_d0

theorem edgesThenLoops_eq (a : (⟨S1200000, .i32⟩ : BufTy).Contents (Elt F)) (b : (⟨S100000, .i32⟩ : BufTy).Contents (Elt F)) :
    concatenate S1300000 0 [⟨S1200000, a⟩, ⟨S100000, b⟩] concatenates_S1200000_S100000_S1300000_d0 = edgesThenLoops (F := F) a b := rfl

/-- Row 0 of the edge list (the sources), then the nodes themselves (the self loops). -/
def srcAll (ei : (⟨S2x1200000, .i32⟩ : BufTy).Contents (Elt F)) : (⟨S1300000, .i32⟩ : BufTy).Contents (Elt F) :=
  edgesThenLoops (F := F)
    (shapeCast S1200000 (extractStridedSlice S1x1200000 ![0, 0] ei slices_S2x1200000_S1x1200000_0_0) shapeCasts_S1x1200000_S1200000)
    (iotaInDim S100000 32 0)

/-- Row 1 of the edge list (the destinations), then the nodes themselves. -/
def dstAll (ei : (⟨S2x1200000, .i32⟩ : BufTy).Contents (Elt F)) : (⟨S1300000, .i32⟩ : BufTy).Contents (Elt F) :=
  edgesThenLoops (F := F)
    (shapeCast S1200000 (extractStridedSlice S1x1200000 ![1, 0] ei slices_S2x1200000_S1x1200000_1_0) shapeCasts_S1x1200000_S1200000)
    (iotaInDim S100000 32 0)

/-- A node index as the gathers and scatters take it: a negative index has the node count added, and the list becomes a
    column of one-entry index vectors. -/
def wrap (a : (⟨S1300000, .i32⟩ : BufTy).Contents (Elt F)) : (⟨S1300000x1, .i32⟩ : BufTy).Contents (Elt F) :=
  broadcastInDim S1300000x1 ![0] bcast_S1300000_S1300000x1_0
    (select (cmpi .slt a (broadcastInDim S1300000 ![] bcast_S_S1300000 (constantI S_ 32 0#32)))
      (addi a (broadcastInDim S1300000 ![] bcast_S_S1300000 (constantI S_ 32 100000#32))) a)

/-- One over the square root of each node's in-degree (ones scattered onto zeros along the destinations). -/
def invSqrtDeg (d : (⟨S1300000, .i32⟩ : BufTy).Contents (Elt F)) : (⟨S100000, .f32⟩ : BufTy).Contents (Elt F) :=
  Host.rsqrt (Host.scatterAdd scatter_S100000_S1300000x1_S1300000_n_0_0_1
    (broadcastInDim S100000 ![] bcast_S_S100000 (constant S_ .f32 0x00000000#32)) (wrap d)
    (broadcastInDim S1300000 ![] bcast_S_S1300000 (constant S_ .f32 0x3F800000#32)))

/-- The symmetric normalisation of each edge: the factor of its source times the factor of its destination. -/
def edgeNorm (s d : (⟨S1300000, .i32⟩ : BufTy).Contents (Elt F)) : (⟨S1300000, .f32⟩ : BufTy).Contents (Elt F) :=
  mulf (Host.gather gather_S100000_S1300000x1_S1300000_n_0_n_n_0_1_1 (invSqrtDeg d) (wrap s))
    (Host.gather gather_S100000_S1300000x1_S1300000_n_0_n_n_0_1_1 (invSqrtDeg d) (wrap d))

/-- One aggregation over the edges of 64-wide rows: the source's row times the edge's factor, summed into the destination's row. -/
def aggregate64 (s d : (⟨S1300000, .i32⟩ : BufTy).Contents (Elt F)) (nrm : (⟨S1300000, .f32⟩ : BufTy).Contents (Elt F))
    (h : (⟨S100000x64, .f32⟩ : BufTy).Contents (Elt F)) : (⟨S100000x64, .f32⟩ : BufTy).Contents (Elt F) :=
  Host.scatterAdd scatter_S100000x64_S1300000x1_S1300000x64_1_0_0_1
    (broadcastInDim S100000x64 ![] bcast_S_S100000x64 (constant S_ .f32 0x00000000#32)) (wrap d)
    (mulf (Host.gather gather_S100000x64_S1300000x1_S1300000x64_1_0_n_n_0_1_164 h (wrap s))
      (broadcastInDim S1300000x64 ![0, 1] bcast_S1300000x1_S1300000x64_0_1
        (broadcastInDim S1300000x1 ![0] bcast_S1300000_S1300000x1_0 nrm)))

/-- The same aggregation of 40-wide rows. -/
def aggregate40 (s d : (⟨S1300000, .i32⟩ : BufTy).Contents (Elt F)) (nrm : (⟨S1300000, .f32⟩ : BufTy).Contents (Elt F))
    (h : (⟨S100000x40, .f32⟩ : BufTy).Contents (Elt F)) : (⟨S100000x40, .f32⟩ : BufTy).Contents (Elt F) :=
  Host.scatterAdd scatter_S100000x40_S1300000x1_S1300000x40_1_0_0_1
    (broadcastInDim S100000x40 ![] bcast_S_S100000x40 (constant S_ .f32 0x00000000#32)) (wrap d)
    (mulf (Host.gather gather_S100000x40_S1300000x1_S1300000x40_1_0_n_n_0_1_140 h (wrap s))
      (broadcastInDim S1300000x40 ![0, 1] bcast_S1300000x1_S1300000x40_0_1
        (broadcastInDim S1300000x1 ![0] bcast_S1300000_S1300000x1_0 nrm)))

/-- What a line of host operations leaves in one buffer: each operation's result at its own buffer is its function of its
    operands' contents, and at any other buffer what was there before it. -/
macro "host_results" : tactic =>
  `(tactic| simp (disch := decide) only [StableHlo.after_cons, StableHlo.after_nil,
      StableHlo.nullary_result', StableHlo.unary_result', StableHlo.binary_result', StableHlo.ternary_result', StableHlo.reshape_result',
      StableHlo.nullary_result_ne', StableHlo.unary_result_ne', StableHlo.binary_result_ne', StableHlo.ternary_result_ne', StableHlo.reshape_result_ne'])

end Cert.KernelIdeal.Graph

end
-- ==== Proof.KernelHost.lean ====
/-
  The idealized kernel's host operations between its launches, read as functions of the buffers they start from.

  For ANY contents W of the buffers when a stretch of host operations starts, what the stretch leaves in the buffers
  that later segments read: the first stretch builds the source and destination index lists (edges, then self loops)
  and the per-edge normalisation from the edge list; each later stretch aggregates the rows a dense launch produced
  along the edges, and reshapes a bias vector to one row. Buffers a stretch does not write keep their contents.
-/
import proofs.«159919_j25795573580199_1_alg».proof.Proof.Gen.KernelIdeal.Frame
import proofs.«159919_j25795573580199_1_alg».proof.Proof.GraphK

set_option maxRecDepth 16384

noncomputable section

namespace Cert.KernelIdeal.Bridge

open Idealize.ShloMosaic Idealize.ShloMosaic.TcCoe
open Cert.KernelIdeal Cert.KernelIdeal.Gen Cert.KernelIdeal.Graph

variable {F : FTy → Type} [FloatOps F] (W : Valuation τ sig (Elt F))

/-- A buffer none of a stretch's operations writes keeps its contents. -/
macro "not_written" : tactic =>
  `(tactic| (refine StableHlo.after_of_forall_not_mem _ _ (List.forall_iff_forall_mem.mp ?_)
             simp only [hostOps0, hostOps1, hostOps3, hostOps5, List.Forall, StableHlo.nullary_writes, StableHlo.unary_writes,
               StableHlo.binary_writes, StableHlo.ternary_writes, StableHlo.reshape_writes, Finset.mem_singleton]
             repeat' apply And.intro
             all_goals exact StableHlo.devRef_ne_of_ne (by decide)))

/-! ## The first stretch: indices and normalisation from the edge list -/

set_option maxHeartbeats 4000000 in
theorem host0_src : StableHlo.after hostOps0 W (Proc.devRef .tc main_v5) = srcAll (W (Proc.devRef .tc main_arg1)) := by
  simp only [hostOps0]
  host_results
  repeat rw [edgesThenLoops_eq]
  try host_results
  rfl

set_option maxHeartbeats 4000000 in
theorem host0_dst : StableHlo.after hostOps0 W (Proc.devRef .tc main_v6) = dstAll (W (Proc.devRef .tc main_arg1)) := by
  simp only [hostOps0]
  host_results
  repeat rw [edgesThenLoops_eq]
  try host_results
  rfl

set_option maxHeartbeats 4000000 in
theorem host0_norm : StableHlo.after hostOps0 W (Proc.devRef .tc main_v31)
    = edgeNorm (srcAll (W (Proc.devRef .tc main_arg1))) (dstAll (W (Proc.devRef .tc main_arg1))) := by
  simp only [hostOps0]
  host_results
  repeat rw [edgesThenLoops_eq]
  try host_results
  rfl

/-! ## The later stretches: one aggregation each, and a bias vector as a row -/

set_option maxHeartbeats 4000000 in
theorem host1_agg : StableHlo.after hostOps1 W (Proc.devRef .tc main_v50)
    = aggregate64 (W (Proc.devRef .tc main_v5)) (W (Proc.devRef .tc main_v6)) (W (Proc.devRef .tc main_v31)) (W (Proc.devRef .tc main_v32)) := by
  simp only [hostOps1]
  host_results
  rfl

theorem host1_bias : StableHlo.after hostOps1 W (Proc.devRef .tc main_v51)
    = shapeCast S1x64 (W (Proc.devRef .tc main_arg3)) shapeCasts_S64_S1x64 := by
  simp only [hostOps1]
  host_results
  rfl

set_option maxHeartbeats 4000000 in
theorem host3_agg : StableHlo.after hostOps3 W (Proc.devRef .tc main_v71)
    = aggregate64 (W (Proc.devRef .tc main_v5)) (W (Proc.devRef .tc main_v6)) (W (Proc.devRef .tc main_v31)) (W (Proc.devRef .tc main_v53)) := by
  simp only [hostOps3]
  host_results
  rfl

theorem host3_bias : StableHlo.after hostOps3 W (Proc.devRef .tc main_v72)
    = shapeCast S1x64 (W (Proc.devRef .tc main_arg5)) shapeCasts_S64_S1x64 := by
  simp only [hostOps3]
  host_results
  rfl

set_option maxHeartbeats 4000000 in
theorem host5_agg : StableHlo.after hostOps5 W (Proc.devRef .tc main_v92)
    = aggregate40 (W (Proc.devRef .tc main_v5)) (W (Proc.devRef .tc main_v6)) (W (Proc.devRef .tc main_v31)) (W (Proc.devRef .tc main_v74)) := by
  simp only [hostOps5]
  host_results
  rfl

theorem host5_bias : StableHlo.after hostOps5 W (Proc.devRef .tc main_v93)
    = shapeCast S1x40 (W (Proc.devRef .tc main_arg7)) shapeCasts_S40_S1x40 := by
  simp only [hostOps5]
  host_results
  rfl

/-! ## What each stretch leaves alone -/

theorem keep0_arg0 : StableHlo.after hostOps0 W (Proc.devRef .tc main_arg0) = W (Proc.devRef .tc main_arg0) := by not_written
theorem keep0_arg2 : StableHlo.after hostOps0 W (Proc.devRef .tc main_arg2) = W (Proc.devRef .tc main_arg2) := by not_written
theorem keep0_arg3 : StableHlo.after hostOps0 W (Proc.devRef .tc main_arg3) = W (Proc.devRef .tc main_arg3) := by not_written
theorem keep0_arg4 : StableHlo.after hostOps0 W (Proc.devRef .tc main_arg4) = W (Proc.devRef .tc main_arg4) := by not_written
theorem keep0_arg5 : StableHlo.after hostOps0 W (Proc.devRef .tc main_arg5) = W (Proc.devRef .tc main_arg5) := by not_written
theorem keep0_arg6 : StableHlo.after hostOps0 W (Proc.devRef .tc main_arg6) = W (Proc.devRef .tc main_arg6) := by not_written
theorem keep0_arg7 : StableHlo.after hostOps0 W (Proc.devRef .tc main_arg7) = W (Proc.devRef .tc main_arg7) := by not_written
theorem keep1_v5 : StableHlo.after hostOps1 W (Proc.devRef .tc main_v5) = W (Proc.devRef .tc main_v5) := by not_written
theorem keep1_v6 : StableHlo.after hostOps1 W (Proc.devRef .tc main_v6) = W (Proc.devRef .tc main_v6) := by not_written
theorem keep1_v31 : StableHlo.after hostOps1 W (Proc.devRef .tc main_v31) = W (Proc.devRef .tc main_v31) := by not_written
theorem keep1_arg4 : StableHlo.after hostOps1 W (Proc.devRef .tc main_arg4) = W (Proc.devRef .tc main_arg4) := by not_written
theorem keep1_arg5 : StableHlo.after hostOps1 W (Proc.devRef .tc main_arg5) = W (Proc.devRef .tc main_arg5) := by not_written
theorem keep1_arg6 : StableHlo.after hostOps1 W (Proc.devRef .tc main_arg6) = W (Proc.devRef .tc main_arg6) := by not_written
theorem keep1_arg7 : StableHlo.after hostOps1 W (Proc.devRef .tc main_arg7) = W (Proc.devRef .tc main_arg7) := by not_written
theorem keep3_v5 : StableHlo.after hostOps3 W (Proc.devRef .tc main_v5) = W (Proc.devRef .tc main_v5) := by not_written
theorem keep3_v6 : StableHlo.after hostOps3 W (Proc.devRef .tc main_v6) = W (Proc.devRef .tc main_v6) := by not_written
theorem keep3_v31 : StableHlo.after hostOps3 W (Proc.devRef .tc main_v31) = W (Proc.devRef .tc main_v31) := by not_written
theorem keep3_arg6 : StableHlo.after hostOps3 W (Proc.devRef .tc main_arg6) = W (Proc.devRef .tc main_arg6) := by not_written
theorem keep3_arg7 : StableHlo.after hostOps3 W (Proc.devRef .tc main_arg7) = W (Proc.devRef .tc main_arg7) := by not_written

end Cert.KernelIdeal.Bridge

end
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.Linear0.lean ====
/-
  The first dense kernel: rows of the node features times the first weight matrix.

  The launch has ten grid points; point t loads rows 10000·t … 10000·t + 9999 of the 100000×128 operand and the whole
  128×64 weight, and stores the 10000×64 product of the two loaded blocks (the narrowing of both operands to bfloat16
  is the identity at the ideal values) as rows 10000·t … of the result. Entry (r, c) of a block product depends only
  on row r of the left block and column c of the right one, so each block written back is the corresponding block of
  the product of the WHOLE arrays; the ten blocks tile the result, so the result array ends as that product.
-/
import proofs.«159919_j25795573580199_1_alg».proof.Proof.Gen.KernelIdeal.Frame
import proofs.«159919_j25795573580199_1_alg».proof.Proof.GcnSpec
import proofs.«159919_j25795573580199_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Bridge

open Idealize.ShloMosaic Idealize.ShloMosaic.TcCoe Idealize.ShloMosaic.ValueIdx
open Idealize.ShloMosaic.Pipeline (Dat Cfg Window)
open Cert.KernelIdeal Cert.KernelIdeal.Gen

theorem zeroOffsets2 : (![0, 0] : Fin 2 → Nat) = fun _ => 0 := funext fun a => by fin_cases a <;> rfl

/-- The body's stored value at (p, q): row p of the left block times column q of the right block. -/
theorem pay0_apply (v0 : Vec Ideal S10000x128 .f32) (v2 : Vec Ideal S128x64 .f32) (p : Fin 10000) (q : Fin 64) :
    k0_pay1 (F := Ideal) v0 v2 (ix2 p q) = ∑ k : Fin 128, v0 (ix2 p k) * v2 (ix2 k q) := by
  unfold k0_pay1
  exact PlainDot.matmul_zero_apply (M := 10000) (K := 128) (N := 64) (φ₁ := .bf16) (φ₂ := .bf16) none v0 v2 p q

theorem pay0_at (v0 : Vec Ideal S10000x128 .f32) (v2 : Vec Ideal S128x64 .f32) (j : S10000x64.Idx) :
    k0_pay1 (F := Ideal) v0 v2 j = ∑ k : Fin 128, v0 (ix2 (j 0) k) * v2 (ix2 k (j 1)) := by
  obtain ⟨p, q, rfl⟩ : ∃ (p : Fin 10000) (q : Fin 64), j = ix2 p q := ⟨j 0, j 1, eq_ix2 j⟩
  exact pay0_apply v0 v2 p q

/-- Where the three windows' blocks sit at grid point t: the row-blocked operand and the result at block row t, the
    weight always at its one block. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What grid point t writes back is block t of the product of the whole arrays the launch finds. -/
theorem flushed0 (c : Dev nD) (t : Fin cfg0.N) :
    (dat0 (F := Ideal) V c).flushed 2 t = ((cfg0.win 2).blk t).view.read (Elt Ideal)
      (GcnSpec.rowsTimes 100000 128 64 (V c (Pipeline.arrRef spec0 0)) (V c (Pipeline.arrRef spec0 1))) := by
  show (cfg0.win 2).cut (grid0.coords t) ((dat0 V c).after 2 t) = _
  rw [after0_2]
  unfold out0_2
  rw [View.canon_unit_zero zeroOffsets2]
  simp only [View.ld_unit_zero (S := S10000x128) zeroOffsets2, View.ld_unit_zero (S := S128x64) zeroOffsets2]
  obtain ⟨e00, e01, e10, e11, e20, e21⟩ := blockIndex0 t
  funext j
  show k0_pay1 (F := Ideal) (iblk0 V c 0 t) (iblk0 V c 1 t) j
    = GcnSpec.rowsTimes 100000 128 64 (V c (Pipeline.arrRef spec0 0)) (V c (Pipeline.arrRef spec0 1)) (((cfg0.win 2).blk t).view.emb j)
  refine (pay0_at (iblk0 V c 0 t) (iblk0 V c 1 t) j).trans ?_
  unfold GcnSpec.rowsTimes
  refine Finset.sum_congr rfl fun k _ => ?_
  have hj0 : (j 0).val < 10000 := (j 0).isLt
  have hj1 : (j 1).val < 64 := (j 1).isLt
  have hk : k.val < 128 := k.isLt
  refine congrArg₂ (· * ·) ?_ ?_
  · show V c (Pipeline.arrRef spec0 0) (((cfg0.win 0).blk t).view.emb (ix2 (j 0) k)) = _
    refine congrArg _ ?_
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  · show V c (Pipeline.arrRef spec0 1) (((cfg0.win 1).blk t).view.emb (ix2 k (j 1))) = _
    refine congrArg _ ?_
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega

/-- An index of the result is in point t's block iff each coordinate is in the block's range on its axis. -/
theorem memBlock0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v32).slice (win0_2.rect t)).set ↔ _
  rw [View.set_slice_whole, Rect.mem_set_unit]
  exact Iff.rfl

/-- Every entry of the result lies in the block of the grid point numbered by its row divided by 10000. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨e00, e01, e10, e11, e20, e21⟩ := blockIndex0 t
  have ht : t.val = (i 0).val / 10000 := rfl
  refine ⟨t, flush0_2 t, ?_⟩
  rw [memBlock0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The result array after the launch: the product of the two operand arrays as the launch finds them. -/
theorem array0 (c : Dev nD) :
    (dat0 (F := Ideal) V c).arrAt 2 cfg0.N
      = GcnSpec.rowsTimes 100000 128 64 (V c (Pipeline.arrRef spec0 0)) (V c (Pipeline.arrRef spec0 1)) :=
  (dat0 (F := Ideal) V c).arrAt_eq_of_cover 2 _ (fun t _ => flushed0 V c t) cover0

end Cert.KernelIdeal.Bridge

end
-- ==== Proof.Linear2.lean ====
/-
  The second dense kernel: rows of the first hidden layer times the second weight matrix.

  The launch has ten grid points; point t loads rows 10000·t … 10000·t + 9999 of the 100000×64 operand and the whole
  64×64 weight, and stores the 10000×64 product of the two loaded blocks (the narrowing of both operands to bfloat16
  is the identity at the ideal values) as rows 10000·t … of the result. Entry (r, c) of a block product depends only
  on row r of the left block and column c of the right one, so each block written back is the corresponding block of
  the product of the WHOLE arrays; the ten blocks tile the result, so the result array ends as that product.
-/
import proofs.«159919_j25795573580199_1_alg».proof.Proof.Gen.KernelIdeal.Frame
import proofs.«159919_j25795573580199_1_alg».proof.Proof.GcnSpec
import proofs.«159919_j25795573580199_1_alg».proof.Proof.LibPlainDot
import proofs.«159919_j25795573580199_1_alg».proof.Proof.Linear0
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Bridge

open Idealize.ShloMosaic Idealize.ShloMosaic.TcCoe Idealize.ShloMosaic.ValueIdx
open Idealize.ShloMosaic.Pipeline (Dat Cfg Window)
open Cert.KernelIdeal Cert.KernelIdeal.Gen

/-- The body's stored value at (p, q): row p of the left block times column q of the right block. -/
theorem pay2_apply (v0 : Vec Ideal S10000x64 .f32) (v2 : Vec Ideal S64x64 .f32) (p : Fin 10000) (q : Fin 64) :
    k2_pay1 (F := Ideal) v0 v2 (ix2 p q) = ∑ k : Fin 64, v0 (ix2 p k) * v2 (ix2 k q) := by
  unfold k2_pay1
  simp only [shapeCast_self]
  exact PlainDot.matmul_zero_apply (M := 10000) (K := 64) (N := 64) (φ₁ := .bf16) (φ₂ := .bf16) none v0 v2 p q

theorem pay2_at (v0 : Vec Ideal S10000x64 .f32) (v2 : Vec Ideal S64x64 .f32) (j : S10000x64.Idx) :
    k2_pay1 (F := Ideal) v0 v2 j = ∑ k : Fin 64, v0 (ix2 (j 0) k) * v2 (ix2 k (j 1)) := by
  obtain ⟨p, q, rfl⟩ : ∃ (p : Fin 10000) (q : Fin 64), j = ix2 p q := ⟨j 0, j 1, eq_ix2 j⟩
  exact pay2_apply v0 v2 p q

/-- Where the three windows' blocks sit at grid point t: the row-blocked operand and the result at block row t, the
    weight always at its one block. -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What grid point t writes back is block t of the product of the whole arrays the launch finds. -/
theorem flushed2 (c : Dev nD) (t : Fin cfg2.N) :
    (dat2 (F := Ideal) V c).flushed 2 t = ((cfg2.win 2).blk t).view.read (Elt Ideal)
      (GcnSpec.rowsTimes 100000 64 64 (V c (Pipeline.arrRef spec2 0)) (V c (Pipeline.arrRef spec2 1))) := by
  show (cfg2.win 2).cut (grid2.coords t) ((dat2 V c).after 2 t) = _
  rw [after2_2]
  unfold out2_2
  rw [View.canon_unit_zero zeroOffsets2]
  simp only [View.ld_unit_zero (S := S10000x64) zeroOffsets2, View.ld_unit_zero (S := S64x64) zeroOffsets2]
  obtain ⟨e00, e01, e10, e11, e20, e21⟩ := blockIndex2 t
  funext j
  show k2_pay1 (F := Ideal) (iblk2 V c 0 t) (iblk2 V c 1 t) j
    = GcnSpec.rowsTimes 100000 64 64 (V c (Pipeline.arrRef spec2 0)) (V c (Pipeline.arrRef spec2 1)) (((cfg2.win 2).blk t).view.emb j)
  refine (pay2_at (iblk2 V c 0 t) (iblk2 V c 1 t) j).trans ?_
  unfold GcnSpec.rowsTimes
  refine Finset.sum_congr rfl fun k _ => ?_
  have hj0 : (j 0).val < 10000 := (j 0).isLt
  have hj1 : (j 1).val < 64 := (j 1).isLt
  have hk : k.val < 64 := k.isLt
  refine congrArg₂ (· * ·) ?_ ?_
  · show V c (Pipeline.arrRef spec2 0) (((cfg2.win 0).blk t).view.emb (ix2 (j 0) k)) = _
    refine congrArg _ ?_
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * k.val = k.val; omega
  · show V c (Pipeline.arrRef spec2 1) (((cfg2.win 1).blk t).view.emb (ix2 k (j 1))) = _
    refine congrArg _ ?_
    funext a; apply Fin.ext
    match a with
    | ⟨0, _⟩ => show win2_1.index t (0 : Fin 2) * 64 + 1 * k.val = k.val; omega
    | ⟨1, _⟩ => show win2_1.index t (1 : Fin 2) * 64 + 1 * (j 1).val = win2_2.index t (1 : Fin 2) * 64 + 1 * (j 1).val; omega

/-- An index of the result is in point t's block iff each coordinate is in the block's range on its axis. -/
theorem memBlock2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v53).slice (win2_2.rect t)).set ↔ _
  rw [View.set_slice_whole, Rect.mem_set_unit]
  exact Iff.rfl

/-- Every entry of the result lies in the block of the grid point numbered by its row divided by 10000. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  let t : Fin cfg2.N := ⟨(i 0).val / 10000, by rw [hN]; omega⟩
  obtain ⟨e00, e01, e10, e11, e20, e21⟩ := blockIndex2 t
  have ht : t.val = (i 0).val / 10000 := rfl
  refine ⟨t, flush2_2 t, ?_⟩
  rw [memBlock2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The result array after the launch: the product of the two operand arrays as the launch finds them. -/
theorem array2 (c : Dev nD) :
    (dat2 (F := Ideal) V c).arrAt 2 cfg2.N
      = GcnSpec.rowsTimes 100000 64 64 (V c (Pipeline.arrRef spec2 0)) (V c (Pipeline.arrRef spec2 1)) :=
  (dat2 (F := Ideal) V c).arrAt_eq_of_cover 2 _ (fun t _ => flushed2 V c t) cover2

end Cert.KernelIdeal.Bridge

end
-- ==== Proof.Linear4.lean ====
/-
  The third dense kernel: rows of the second hidden layer times the third weight matrix.

  The launch has ten grid points; point t loads rows 10000·t … 10000·t + 9999 of the 100000×64 operand and the whole
  64×40 weight, and stores the 10000×40 product of the two loaded blocks (the narrowing of both operands to bfloat16
  is the identity at the ideal values) as rows 10000·t … of the result. Entry (r, c) of a block product depends only
  on row r of the left block and column c of the right one, so each block written back is the corresponding block of
  the product of the WHOLE arrays; the ten blocks tile the result, so the result array ends as that product.
-/
import proofs.«159919_j25795573580199_1_alg».proof.Proof.Gen.KernelIdeal.Frame
import proofs.«159919_j25795573580199_1_alg».proof.Proof.GcnSpec
import proofs.«159919_j25795573580199_1_alg».proof.Proof.LibPlainDot
import proofs.«159919_j25795573580199_1_alg».proof.Proof.Linear0
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Bridge

open Idealize.ShloMosaic Idealize.ShloMosaic.TcCoe Idealize.ShloMosaic.ValueIdx
open Idealize.ShloMosaic.Pipeline (Dat Cfg Window)
open Cert.KernelIdeal Cert.KernelIdeal.Gen

/-- The body's stored value at (p, q): row p of the left block times column q of the right block. -/
theorem pay4_apply (v0 : Vec Ideal S10000x64 .f32) (v2 : Vec Ideal S64x40 .f32) (p : Fin 10000) (q : Fin 40) :
    k4_pay1 (F := Ideal) v0 v2 (ix2 p q) = ∑ k : Fin 64, v0 (ix2 p k) * v2 (ix2 k q) := by
  unfold k4_pay1
  simp only [shapeCast_self]
  exact PlainDot.matmul_zero_apply (M := 10000) (K := 64) (N := 40) (φ₁ := .bf16) (φ₂ := .bf16) none v0 v2 p q

theorem pay4_at (v0 : Vec Ideal S10000x64 .f32) (v2 : Vec Ideal S64x40 .f32) (j : S10000x40.Idx) :
    k4_pay1 (F := Ideal) v0 v2 j = ∑ k : Fin 64, v0 (ix2 (j 0) k) * v2 (ix2 k (j 1)) := by
  obtain ⟨p, q, rfl⟩ : ∃ (p : Fin 10000) (q : Fin 40), j = ix2 p q := ⟨j 0, j 1, eq_ix2 j⟩
  exact pay4_apply v0 v2 p q

/-- Where the three windows' blocks sit at grid point t: the row-blocked operand and the result at block row t, the
    weight always at its one block. -/
theorem blockIndex4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

variable (V : (c : Dev nD) → (b : Ref sig .tc) → Buf (Elt Ideal) ((c : Thread nD τ).loc b))

/-- What grid point t writes back is block t of the product of the whole arrays the launch finds. -/
theorem flushed4 (c : Dev nD) (t : Fin cfg4.N) :
    (dat4 (F := Ideal) V c).flushed 2 t = ((cfg4.win 2).blk t).view.read (Elt Ideal)
      (GcnSpec.rowsTimes 100000 64 40 (V c (Pipeline.arrRef spec4 0)) (V c (Pipeline.arrRef spec4 1))) := by
  show (cfg4.win 2).cut (grid4.coords t) ((dat4 V c).after 2 t) = _
  rw [after4_2]
  unfold out4_2
  rw [View.canon_unit_zero zeroOffsets2]
  simp only [View.ld_unit_zero (S := S10000x64) zeroOffsets2, View.ld_unit_zero (S := S64x40) zeroOffsets2]
  obtain ⟨e00, e01, e10, e11, e20, e21⟩ := blockIndex4 t
  funext j
  show k4_pay1 (F := Ideal) (iblk4 V c 0 t) (iblk4 V c 1 t) j
    = GcnSpec.rowsTimes 100000 64 40 (V c (Pipeline.arrRef spec4 0)) (V c (Pipeline.arrRef spec4 1)) (((cfg4.win 2).blk t).view.emb j)
  refine (pay4_at (iblk4 V c 0 t) (iblk4 V c 1 t) j).trans ?_
  unfold GcnSpec.rowsTimes
  refine Finset.sum_congr rfl fun k _ => ?_
  have hj0 : (j 0).val < 10000 := (j 0).isLt
  have hj1 : (j 1).val < 40 := (j 1).isLt
  have hk : k.val < 64 := k.isLt
  refine congrArg₂ (· * ·) ?_ ?_
  · show V c (Pipeline.arrRef spec4 0) (((cfg4.win 0).blk t).view.emb (ix2 (j 0) k)) = _
    refine congrArg _ ?_
    funext a; apply Fin.ext
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 64 + 1 * k.val = k.val; omega
  · show V c (Pipeline.arrRef spec4 1) (((cfg4.win 1).blk t).view.emb (ix2 k (j 1))) = _
    refine congrArg _ ?_
    funext a; apply Fin.ext
    match a with
    | ⟨0, _⟩ => show win4_1.index t (0 : Fin 2) * 64 + 1 * k.val = k.val; omega
    | ⟨1, _⟩ => show win4_1.index t (1 : Fin 2) * 40 + 1 * (j 1).val = win4_2.index t (1 : Fin 2) * 40 + 1 * (j 1).val; omega

/-- An index of the result is in point t's block iff each coordinate is in the block's range on its axis. -/
theorem memBlock4 (t : Fin cfg4.N) (i : S100000x40.Idx) :
    i ∈ ((cfg4.win 2).blk t).view.set ↔ ∀ a : Fin 2, win4_2.index t a * S10000x40.size a ≤ (i a).val ∧ (i a).val < win4_2.index t a * S10000x40.size a + S10000x40.size a := by
  show i ∈ ((View.whole main_v74).slice (win4_2.rect t)).set ↔ _
  rw [View.set_slice_whole, Rect.mem_set_unit]
  exact Iff.rfl

/-- Every entry of the result lies in the block of the grid point numbered by its row divided by 10000. -/
theorem cover4 (i : S100000x40.Idx) : ∃ t : Fin cfg4.N, (cfg4.win 2).flush t = true ∧ i ∈ ((cfg4.win 2).blk t).view.set := by
  have hi0 : (i 0).val < 100000 := (i 0).isLt
  have hi1 : (i 1).val < 40 := (i 1).isLt
  have hN : cfg4.N = 10 := N_4
  let t : Fin cfg4.N := ⟨(i 0).val / 10000, by rw [hN]; omega⟩
  obtain ⟨e00, e01, e10, e11, e20, e21⟩ := blockIndex4 t
  have ht : t.val = (i 0).val / 10000 := rfl
  refine ⟨t, flush4_2 t, ?_⟩
  rw [memBlock4]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 40 ≤ (i 1).val ∧ (i 1).val < win4_2.index t (1 : Fin 2) * 40 + 40; omega

/-- The result array after the launch: the product of the two operand arrays as the launch finds them. -/
theorem array4 (c : Dev nD) :
    (dat4 (F := Ideal) V c).arrAt 2 cfg4.N
      = GcnSpec.rowsTimes 100000 64 40 (V c (Pipeline.arrRef spec4 0)) (V c (Pipeline.arrRef spec4 1)) :=
  (dat4 (F := Ideal) V c).arrAt_eq_of_cover 2 _ (fun t _ => flushed4 V c t) cover4

end Cert.KernelIdeal.Bridge

end
-- ==== Proof.BiasRelu1.lean ====
/-
  The first bias-and-rectify kernel.

  The launch has ten grid points; point t loads rows 10000·t … 10000·t + 9999 of the 100000×64 operand and the whole
  1×64 bias row, adds the row to every loaded row, takes the maximum with zero, and stores the 10000×64 block as rows
  10000·t … of the result. Entry (r, c) of what is stored depends only on entry (r, c) of the loaded block and entry c
  of the bias row, so each block written back is the corresponding block of the same operation on the WHOLE arrays; the
  ten blocks tile the result.
-/
import proofs.«159919_j25795573580199_1_alg».proof.Proof.Gen.KernelIdeal.Frame
import proofs.«159919_j25795573580199_1_alg».proof.Proof.GcnSpec
import proofs.«159919_j25795573580199_1_alg».proof.Proof.Linear0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Bridge

open Idealize.ShloMosaic Idealize.ShloMosaic.TcCoe Idealize.ShloMosaic.ValueIdx
open Idealize.ShloMosaic.Pipeline (Dat Cfg Window)
open Cert.KernelIdeal Cert.KernelIdeal.Gen

/-- The body's stored value at (p, q): the loaded entry plus the bias row's entry q, or zero if that is larger. -/
theorem pay1_apply (v0 : Vec Ideal S10000x64 .f32) (v2 : Vec Ideal S1x64 .f32) (p : Fin 10000) (q : Fin 64) :
    k1_pay1 (F := Ideal) v0 v2 (ix2 p q) = max (v0 (ix2 p q) + v2 (ix2 (0 : Fin 1) q)) (Ideal.ofBits .f32 0x00000000#32) := by
  unfold k1_pay1
  simp only [shapeCast_self]
  show max (v0 (ix2 p q) + broadcastTo S10000x64 v2 broadcasts_S1x64_S10000x64 (ix2 p q)) (Ideal.ofBits .f32 0x00000000#32) = _
  rw [broadcastTo_1b_ab_apply]

theorem pay1_at (v0 : Vec Ideal S10000x64 .f32) (v2 : Vec Ideal S1x64 .f32) (j : S10000x64.Idx) :
    k1_pay1 (F := Ideal) v0 v2 j = max (v0 j + v2 (ix2 (0 : Fin 1) (j 1))) (Ideal.ofBits .f32 0x00000000#32) := by
  obtain ⟨p, q, rfl⟩ : ∃ (p : Fin 10000) (q : Fin 64), j = ix2 p q := ⟨j 0, j 1, eq_ix2 j⟩
  exact pay1_apply v0 v2 p q

/-- Where the three windows' blocks sit at grid point t: the row-blocked operand and the result at block row t, the
    bias row always at its one block. -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What grid point t writes back is block t of the bias-and-rectify of the whole arrays the launch finds. -/
theorem flushed1 (c : Dev nD) (t : Fin cfg1.N) :
    (dat1 (F := Ideal) V c).flushed 2 t = ((cfg1.win 2).blk t).view.read (Elt Ideal)
      (GcnSpec.biasRelu 100000 64 (V c (Pipeline.arrRef spec1 0)) (V c (Pipeline.arrRef spec1 1))) := by
  show (cfg1.win 2).cut (grid1.coords t) ((dat1 V c).after 2 t) = _
  rw [after1_2]
  unfold out1_2
  rw [View.canon_unit_zero zeroOffsets2]
  simp only [View.ld_unit_zero (S := S10000x64) zeroOffsets2, View.ld_unit_zero (S := S1x64) zeroOffsets2]
  obtain ⟨e00, e01, e10, e11, e20, e21⟩ := blockIndex1 t
  funext j
  show k1_pay1 (F := Ideal) (iblk1 V c 0 t) (iblk1 V c 1 t) j
    = GcnSpec.biasRelu 100000 64 (V c (Pipeline.arrRef spec1 0)) (V c (Pipeline.arrRef spec1 1)) (((cfg1.win 2).blk t).view.emb j)
  refine (pay1_at (iblk1 V c 0 t) (iblk1 V c 1 t) j).trans ?_
  unfold GcnSpec.biasRelu
  have hj0 : (j 0).val < 10000 := (j 0).isLt
  have hj1 : (j 1).val < 64 := (j 1).isLt
  refine congrArg (max · _) (congrArg₂ (· + ·) ?_ ?_)
  · show V c (Pipeline.arrRef spec1 0) (((cfg1.win 0).blk t).view.emb j) = _
    refine congrArg _ ?_
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  · show V c (Pipeline.arrRef spec1 1) (((cfg1.win 1).blk t).view.emb (ix2 (0 : Fin 1) (j 1))) = _
    refine congrArg _ ?_
    funext a; apply Fin.ext
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega

/-- An index of the result is in point t's block iff each coordinate is in the block's range on its axis. -/
theorem memBlock1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v52).slice (win1_2.rect t)).set ↔ _
  rw [View.set_slice_whole, Rect.mem_set_unit]
  exact Iff.rfl

/-- Every entry of the result lies in the block of the grid point numbered by its row divided by 10000. -/
theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  let t : Fin cfg1.N := ⟨(i 0).val / 10000, by rw [hN]; omega⟩
  obtain ⟨e00, e01, e10, e11, e20, e21⟩ := blockIndex1 t
  have ht : t.val = (i 0).val / 10000 := rfl
  refine ⟨t, flush1_2 t, ?_⟩
  rw [memBlock1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The result array after the launch: the bias row added to every row of the operand as the launch finds them, and
    the maximum with zero. -/
theorem array1 (c : Dev nD) :
    (dat1 (F := Ideal) V c).arrAt 2 cfg1.N
      = GcnSpec.biasRelu 100000 64 (V c (Pipeline.arrRef spec1 0)) (V c (Pipeline.arrRef spec1 1)) :=
  (dat1 (F := Ideal) V c).arrAt_eq_of_cover 2 _ (fun t _ => flushed1 V c t) cover1

end Cert.KernelIdeal.Bridge

end
-- ==== Proof.BiasRelu3.lean ====
/-
  The second bias-and-rectify kernel.

  The launch has ten grid points; point t loads rows 10000·t … 10000·t + 9999 of the 100000×64 operand and the whole
  1×64 bias row, adds the row to every loaded row, takes the maximum with zero, and stores the 10000×64 block as rows
  10000·t … of the result. Entry (r, c) of what is stored depends only on entry (r, c) of the loaded block and entry c
  of the bias row, so each block written back is the corresponding block of the same operation on the WHOLE arrays; the
  ten blocks tile the result.
-/
import proofs.«159919_j25795573580199_1_alg».proof.Proof.Gen.KernelIdeal.Frame
import proofs.«159919_j25795573580199_1_alg».proof.Proof.GcnSpec
import proofs.«159919_j25795573580199_1_alg».proof.Proof.Linear0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Bridge

open Idealize.ShloMosaic Idealize.ShloMosaic.TcCoe Idealize.ShloMosaic.ValueIdx
open Idealize.ShloMosaic.Pipeline (Dat Cfg Window)
open Cert.KernelIdeal Cert.KernelIdeal.Gen

/-- The body's stored value at (p, q): the loaded entry plus the bias row's entry q, or zero if that is larger. -/
theorem pay3_apply (v0 : Vec Ideal S10000x64 .f32) (v2 : Vec Ideal S1x64 .f32) (p : Fin 10000) (q : Fin 64) :
    k3_pay1 (F := Ideal) v0 v2 (ix2 p q) = max (v0 (ix2 p q) + v2 (ix2 (0 : Fin 1) q)) (Ideal.ofBits .f32 0x00000000#32) := by
  unfold k3_pay1
  simp only [shapeCast_self]
  show max (v0 (ix2 p q) + broadcastTo S10000x64 v2 broadcasts_S1x64_S10000x64 (ix2 p q)) (Ideal.ofBits .f32 0x00000000#32) = _
  rw [broadcastTo_1b_ab_apply]

theorem pay3_at (v0 : Vec Ideal S10000x64 .f32) (v2 : Vec Ideal S1x64 .f32) (j : S10000x64.Idx) :
    k3_pay1 (F := Ideal) v0 v2 j = max (v0 j + v2 (ix2 (0 : Fin 1) (j 1))) (Ideal.ofBits .f32 0x00000000#32) := by
  obtain ⟨p, q, rfl⟩ : ∃ (p : Fin 10000) (q : Fin 64), j = ix2 p q := ⟨j 0, j 1, eq_ix2 j⟩
  exact pay3_apply v0 v2 p q

/-- Where the three windows' blocks sit at grid point t: the row-blocked operand and the result at block row t, the
    bias row always at its one block. -/
theorem blockIndex3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- What grid point t writes back is block t of the bias-and-rectify of the whole arrays the launch finds. -/
theorem flushed3 (c : Dev nD) (t : Fin cfg3.N) :
    (dat3 (F := Ideal) V c).flushed 2 t = ((cfg3.win 2).blk t).view.read (Elt Ideal)
      (GcnSpec.biasRelu 100000 64 (V c (Pipeline.arrRef spec3 0)) (V c (Pipeline.arrRef spec3 1))) := by
  show (cfg3.win 2).cut (grid3.coords t) ((dat3 V c).after 2 t) = _
  rw [after3_2]
  unfold out3_2
  rw [View.canon_unit_zero zeroOffsets2]
  simp only [View.ld_unit_zero (S := S10000x64) zeroOffsets2, View.ld_unit_zero (S := S1x64) zeroOffsets2]
  obtain ⟨e00, e01, e10, e11, e20, e21⟩ := blockIndex3 t
  funext j
  show k3_pay1 (F := Ideal) (iblk3 V c 0 t) (iblk3 V c 1 t) j
    = GcnSpec.biasRelu 100000 64 (V c (Pipeline.arrRef spec3 0)) (V c (Pipeline.arrRef spec3 1)) (((cfg3.win 2).blk t).view.emb j)
  refine (pay3_at (iblk3 V c 0 t) (iblk3 V c 1 t) j).trans ?_
  unfold GcnSpec.biasRelu
  have hj0 : (j 0).val < 10000 := (j 0).isLt
  have hj1 : (j 1).val < 64 := (j 1).isLt
  refine congrArg (max · _) (congrArg₂ (· + ·) ?_ ?_)
  · show V c (Pipeline.arrRef spec3 0) (((cfg3.win 0).blk t).view.emb j) = _
    refine congrArg _ ?_
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * (j 1).val = win3_2.index t (1 : Fin 2) * 64 + 1 * (j 1).val; omega
  · show V c (Pipeline.arrRef spec3 1) (((cfg3.win 1).blk t).view.emb (ix2 (0 : Fin 1) (j 1))) = _
    refine congrArg _ ?_
    funext a; apply Fin.ext
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega

/-- An index of the result is in point t's block iff each coordinate is in the block's range on its axis. -/
theorem memBlock3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v73).slice (win3_2.rect t)).set ↔ _
  rw [View.set_slice_whole, Rect.mem_set_unit]
  exact Iff.rfl

/-- Every entry of the result lies in the block of the grid point numbered by its row divided by 10000. -/
theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 10 := N_3
  let t : Fin cfg3.N := ⟨(i 0).val / 10000, by rw [hN]; omega⟩
  obtain ⟨e00, e01, e10, e11, e20, e21⟩ := blockIndex3 t
  have ht : t.val = (i 0).val / 10000 := rfl
  refine ⟨t, flush3_2 t, ?_⟩
  rw [memBlock3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The result array after the launch: the bias row added to every row of the operand as the launch finds them, and
    the maximum with zero. -/
theorem array3 (c : Dev nD) :
    (dat3 (F := Ideal) V c).arrAt 2 cfg3.N
      = GcnSpec.biasRelu 100000 64 (V c (Pipeline.arrRef spec3 0)) (V c (Pipeline.arrRef spec3 1)) :=
  (dat3 (F := Ideal) V c).arrAt_eq_of_cover 2 _ (fun t _ => flushed3 V c t) cover3

end Cert.KernelIdeal.Bridge

end
-- ==== Proof.LibKeepdims.lean ====
/-
  A column kept as a unit axis: the two layout operations a row-wise reduction with its axis kept goes through.

  * A length-a vector cast to an a×1 array reads, at (i, u), the vector at i (the unit coordinate u is 0).
  * An a×1 array broadcast to a×b reads, at (p, c), the column's entry at (p, 0), whatever the column c.
-/
import Idealize.ShloMosaic.Lib.Pipeline.Value
import Idealize.ShloMosaic.Lib.ValueIdx
import Idealize.ShloMosaic.Lib.ValueLayout

noncomputable section

namespace Idealize.ShloMosaic.Keepdims

open Idealize.ShloMosaic Idealize.ShloMosaic.ValueIdx

variable {α : Type}

/-- A vector of length a cast to a×1 reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column broadcast to a×b reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.LogSoftmax5.lean ====
/-
  The last kernel: the bias row added, then the logarithm of the softmax along rows.

  The launch has ten grid points; point t loads rows 10000·t … 10000·t + 9999 of the 100000×40 operand and the whole
  1×40 bias row. With y the loaded block plus the bias row on every row, it takes each row's maximum m (folded from
  minus infinity), stores y − m − log Σ exp(y − m) (the sum along the row), as rows 10000·t … of the result. Every
  entry of what is stored in row r depends only on row r of the loaded block and on the bias row, so each block
  written back is the corresponding block of the same operation on the WHOLE arrays; the ten blocks tile the result.
-/
import proofs.«159919_j25795573580199_1_alg».proof.Proof.Gen.KernelIdeal.Frame
import proofs.«159919_j25795573580199_1_alg».proof.Proof.GcnSpec
import proofs.«159919_j25795573580199_1_alg».proof.Proof.LibKeepdims
import proofs.«159919_j25795573580199_1_alg».proof.Proof.Linear0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace GcnSpec

open Idealize.ShloMosaic Idealize.ShloMosaic.ValueIdx

/-- The log-softmax of a row depends only on that row: two arrays that agree along a row of each give the same
    entries there. -/
theorem logSoftmaxRows_congr {M M' N : Nat} (y : (⟨2, ![M, N]⟩ : Shape).Idx → EReal) (y' : (⟨2, ![M', N]⟩ : Shape).Idx → EReal)
    (r : Fin M) (r' : Fin M') (h : ∀ k : Fin N, y (ix2 r k) = y' (ix2 r' k)) (q : Fin N) :
    logSoftmaxRows M N y (ix2 r q) = logSoftmaxRows M' N y' (ix2 r' q) := by
  have hm : rowMax M N y r = rowMax M' N y' r' := by
    unfold rowMax
    exact congrArg (fun f => (Finset.univ : Finset (Fin N)).fold max (Ideal.ofBits .f32 0xFF800000#32) f) (funext h)
  show (y (ix2 r q) - rowMax M N y r) - Ideal.log (∑ k : Fin N, Ideal.exp (y (ix2 r k) - rowMax M N y r))
    = (y' (ix2 r' q) - rowMax M' N y' r') - Ideal.log (∑ k : Fin N, Ideal.exp (y' (ix2 r' k) - rowMax M' N y' r'))
  rw [hm, h q]
  exact congrArg (fun s => (y' (ix2 r' q) - rowMax M' N y' r') - Ideal.log s)
    (Finset.sum_congr rfl fun k _ => by rw [h k])

/-- The row-added array at (r, k). -/
theorem addRow_apply {M N : Nat} (a : (⟨2, ![M, N]⟩ : Shape).Idx → EReal) (b : (⟨2, ![1, N]⟩ : Shape).Idx → EReal) (r : Fin M) (k : Fin N) :
    addRow M N a b (ix2 r k) = a (ix2 r k) + b (ix2 (0 : Fin 1) k) := rfl

end GcnSpec

namespace Cert.KernelIdeal.Bridge

open Idealize.ShloMosaic Idealize.ShloMosaic.TcCoe Idealize.ShloMosaic.ValueIdx Idealize.ShloMosaic.Keepdims
open Idealize.ShloMosaic.Pipeline (Dat Cfg Window)
open Cert.KernelIdeal Cert.KernelIdeal.Gen

/-- A block's row maximum, as the body takes it: the fold of max over the row from the word of minus infinity. -/
theorem blockRowMax (y : FVec Ideal S10000x40 .f32) (p : Fin 10000) :
    multiReduction (F := Ideal) .maximumf [1] S10000 y 0xFF800000#32 reduces_S10000x40_S10000 (.inl rfl) rfl (ix1 p)
      = GcnSpec.rowMax 10000 40 y p := by
  refine (Ideal.multiReduction_maximumf_single y 0xFF800000#32 reduces_S10000x40_S10000 (.inl rfl) rfl (ix1 p)).trans ?_
  unfold GcnSpec.rowMax
  refine congrArg (fun f => (Finset.univ : Finset (Fin 40)).fold max (Ideal.ofBits .f32 0xFF800000#32) f) ?_
  funext k
  show y (reduces_S10000x40_S10000.lift (ix1 p) k) = y (ix2 p k)
  refine congrArg y (funext fun a => Fin.ext ?_)
  match a with
  | ⟨0, _⟩ => rfl
  | ⟨1, _⟩ => rfl

/-- A block's row sum, as the body takes it. -/
theorem blockRowSum (z : FVec Ideal S10000x40 .f32) (p : Fin 10000) :
    multiReduction (F := Ideal) .add [1] S10000 z 0x00000000#32 reduces_S10000x40_S10000 (.inl rfl) rfl (ix1 p)
      = ∑ k : Fin 40, z (ix2 p k) := by
  refine (Ideal.multiReduction_add_single z 0x00000000#32 reduces_S10000x40_S10000 (.inl rfl) rfl (ix1 p)).trans ?_
  refine Finset.sum_congr rfl fun k _ => congrArg z (funext fun a => Fin.ext ?_)
  match a with
  | ⟨0, _⟩ => rfl
  | ⟨1, _⟩ => rfl

/-- The row maximum kept as a column and spread over the row again. -/
def spreadMax5 (y : FVec Ideal S10000x40 .f32) : FVec Ideal S10000x40 .f32 :=
  broadcastTo S10000x40 (shapeCast S10000x1
    (multiReduction (F := Ideal) .maximumf [1] S10000 y 0xFF800000#32 reduces_S10000x40_S10000 (.inl rfl) rfl)
    shapeCasts_S10000_S10000x1) broadcasts_S10000x1_S10000x40

/-- The body's operations once the bias row has been added: y ↦ y − m − log Σ exp(y − m). -/
def tail5 (y : FVec Ideal S10000x40 .f32) : FVec Ideal S10000x40 .f32 :=
  subf (subf y (spreadMax5 y))
    (broadcastTo S10000x40 (log (shapeCast S10000x1
      (multiReduction (F := Ideal) .add [1] S10000 (exp (subf y (spreadMax5 y))) 0x00000000#32 reduces_S10000x40_S10000 (.inl rfl) rfl)
      shapeCasts_S10000_S10000x1)) broadcasts_S10000x1_S10000x40)

theorem pay5_tail (v0 : Vec Ideal S10000x40 .f32) (v2 : Vec Ideal S1x40 .f32) :
    k5_pay1 (F := Ideal) v0 v2
      = tail5 (addf (shapeCast S10000x40 v0 shapeCasts_S10000x40_S10000x40)
          (broadcastTo S10000x40 (shapeCast S1x40 v2 shapeCasts_S1x40_S1x40) broadcasts_S1x40_S10000x40)) := rfl

theorem spreadMax5_apply (y : FVec Ideal S10000x40 .f32) (p : Fin 10000) (k : Fin 40) :
    spreadMax5 y (ix2 p k) = GcnSpec.rowMax 10000 40 y p := by
  unfold spreadMax5
  rw [broadcastTo_a1_ab_apply, shapeCast_a_a1_apply]
  exact blockRowMax y p

theorem tail5_apply (y : FVec Ideal S10000x40 .f32) (p : Fin 10000) (q : Fin 40) :
    tail5 y (ix2 p q) = GcnSpec.logSoftmaxRows 10000 40 y (ix2 p q) := by
  unfold tail5
  show (y (ix2 p q) - spreadMax5 y (ix2 p q))
      - broadcastTo S10000x40 (log (shapeCast S10000x1
          (multiReduction (F := Ideal) .add [1] S10000 (exp (subf y (spreadMax5 y))) 0x00000000#32 reduces_S10000x40_S10000 (.inl rfl) rfl)
          shapeCasts_S10000_S10000x1)) broadcasts_S10000x1_S10000x40 (ix2 p q)
    = (y (ix2 p q) - GcnSpec.rowMax 10000 40 y p)
      - Ideal.log (∑ k : Fin 40, Ideal.exp (y (ix2 p k) - GcnSpec.rowMax 10000 40 y p))
  rw [spreadMax5_apply, broadcastTo_a1_ab_apply]
  show _ - Ideal.log (shapeCast S10000x1
          (multiReduction (F := Ideal) .add [1] S10000 (exp (subf y (spreadMax5 y))) 0x00000000#32 reduces_S10000x40_S10000 (.inl rfl) rfl)
          shapeCasts_S10000_S10000x1 (ix2 p (0 : Fin 1))) = _
  rw [shapeCast_a_a1_apply, blockRowSum]
  refine congrArg (fun s => (y (ix2 p q) - GcnSpec.rowMax 10000 40 y p) - Ideal.log s) (Finset.sum_congr rfl fun k _ => ?_)
  show Ideal.exp (y (ix2 p k) - spreadMax5 y (ix2 p k)) = _
  rw [spreadMax5_apply]

/-- The body's stored value at (p, q). -/
theorem pay5_apply (v0 : Vec Ideal S10000x40 .f32) (v2 : Vec Ideal S1x40 .f32) (p : Fin 10000) (q : Fin 40) :
    k5_pay1 (F := Ideal) v0 v2 (ix2 p q) = GcnSpec.logSoftmaxRows 10000 40 (GcnSpec.addRow 10000 40 v0 v2) (ix2 p q) := by
  have hy : (addf (shapeCast S10000x40 v0 shapeCasts_S10000x40_S10000x40)
      (broadcastTo S10000x40 (shapeCast S1x40 v2 shapeCasts_S1x40_S1x40) broadcasts_S1x40_S10000x40) : FVec Ideal S10000x40 .f32)
      = GcnSpec.addRow 10000 40 v0 v2 := by
    rw [shapeCast_self, shapeCast_self]
    funext j
    obtain ⟨a, b, rfl⟩ : ∃ (a : Fin 10000) (b : Fin 40), j = ix2 a b := ⟨j 0, j 1, eq_ix2 j⟩
    show v0 (ix2 a b) + broadcastTo S10000x40 v2 broadcasts_S1x40_S10000x40 (ix2 a b) = v0 (ix2 a b) + v2 (ix2 (0 : Fin 1) b)
    rw [broadcastTo_1b_ab_apply]
  rw [pay5_tail, hy]
  exact tail5_apply _ p q

theorem pay5_at (v0 : Vec Ideal S10000x40 .f32) (v2 : Vec Ideal S1x40 .f32) (j : S10000x40.Idx) :
    k5_pay1 (F := Ideal) v0 v2 j = GcnSpec.logSoftmaxRows 10000 40 (GcnSpec.addRow 10000 40 v0 v2) (ix2 (j 0) (j 1)) := by
  obtain ⟨p, q, rfl⟩ : ∃ (p : Fin 10000) (q : Fin 40), j = ix2 p q := ⟨j 0, j 1, eq_ix2 j⟩
  exact pay5_apply v0 v2 p q

/-- Where the three windows' blocks sit at grid point t. -/
theorem blockIndex5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

variable (V : (c : Dev nD) → (b : Ref sig .tc) → Buf (Elt Ideal) ((c : Thread nD τ).loc b))

set_option maxHeartbeats 1000000 in
/-- What grid point t writes back is block t of the operation on the whole arrays the launch finds. -/
theorem flushed5 (c : Dev nD) (t : Fin cfg5.N) :
    (dat5 (F := Ideal) V c).flushed 2 t = ((cfg5.win 2).blk t).view.read (Elt Ideal)
      (GcnSpec.logSoftmaxRows 100000 40 (GcnSpec.addRow 100000 40 (V c (Pipeline.arrRef spec5 0)) (V c (Pipeline.arrRef spec5 1)))) := by
  show (cfg5.win 2).cut (grid5.coords t) ((dat5 V c).after 2 t) = _
  rw [after5_2]
  unfold out5_2
  rw [View.canon_unit_zero zeroOffsets2]
  simp only [View.ld_unit_zero (S := S10000x40) zeroOffsets2, View.ld_unit_zero (S := S1x40) zeroOffsets2]
  obtain ⟨e00, e01, e10, e11, e20, e21⟩ := blockIndex5 t
  funext j
  show k5_pay1 (F := Ideal) (iblk5 V c 0 t) (iblk5 V c 1 t) j
    = GcnSpec.logSoftmaxRows 100000 40 (GcnSpec.addRow 100000 40 (V c (Pipeline.arrRef spec5 0)) (V c (Pipeline.arrRef spec5 1)))
        (((cfg5.win 2).blk t).view.emb j)
  refine (pay5_at (iblk5 V c 0 t) (iblk5 V c 1 t) j).trans ?_
  have hj0 : (j 0).val < 10000 := (j 0).isLt
  have hj1 : (j 1).val < 40 := (j 1).isLt
  -- the array index of the block's entry (j 0, j 1): row 10000·t + j 0, the same column
  have hrow : (t.val * 10000 + (j 0).val) < 100000 := by have := t.isLt; have hN : cfg5.N = 10 := N_5; omega
  have hemb : ((cfg5.win 2).blk t).view.emb j = ix2 (⟨t.val * 10000 + (j 0).val, hrow⟩ : Fin 100000) (j 1) := by
    funext a; apply Fin.ext
    match a with
    | ⟨0, _⟩ => show win5_2.index t (0 : Fin 2) * 10000 + 1 * (j 0).val = t.val * 10000 + (j 0).val; omega
    | ⟨1, _⟩ => show win5_2.index t (1 : Fin 2) * 40 + 1 * (j 1).val = (j 1).val; omega
  rw [hemb]
  refine GcnSpec.logSoftmaxRows_congr _ _ (j 0) _ (fun k => ?_) (j 1)
  have hk : k.val < 40 := k.isLt
  refine (GcnSpec.addRow_apply (iblk5 V c 0 t) (iblk5 V c 1 t) (j 0) k).trans ?_
  refine Eq.trans ?_ (GcnSpec.addRow_apply (V c (Pipeline.arrRef spec5 0)) (V c (Pipeline.arrRef spec5 1)) (⟨t.val * 10000 + (j 0).val, hrow⟩ : Fin 100000) k).symm
  refine congrArg₂ (· + ·) ?_ ?_
  · show V c (Pipeline.arrRef spec5 0) (((cfg5.win 0).blk t).view.emb (ix2 (j 0) k)) = _
    refine congrArg _ ?_
    funext a; apply Fin.ext
    match a with
    | ⟨0, _⟩ => show win5_0.index t (0 : Fin 2) * 10000 + 1 * (j 0).val = t.val * 10000 + (j 0).val; omega
    | ⟨1, _⟩ => show win5_0.index t (1 : Fin 2) * 40 + 1 * k.val = k.val; omega
  · refine congrArg (V c (Pipeline.arrRef spec5 1)) ?_
    funext a; apply Fin.ext
    match a with
    | ⟨0, _⟩ => show win5_1.index t (0 : Fin 2) * 1 + 1 * 0 = 0; omega
    | ⟨1, _⟩ => show win5_1.index t (1 : Fin 2) * 40 + 1 * k.val = k.val; omega

/-- An index of the result is in point t's block iff each coordinate is in the block's range on its axis. -/
theorem memBlock5 (t : Fin cfg5.N) (i : S100000x40.Idx) :
    i ∈ ((cfg5.win 2).blk t).view.set ↔ ∀ a : Fin 2, win5_2.index t a * S10000x40.size a ≤ (i a).val ∧ (i a).val < win5_2.index t a * S10000x40.size a + S10000x40.size a := by
  show i ∈ ((View.whole main_v94).slice (win5_2.rect t)).set ↔ _
  rw [View.set_slice_whole, Rect.mem_set_unit]
  exact Iff.rfl

/-- Every entry of the result lies in the block of the grid point numbered by its row divided by 10000. -/
theorem cover5 (i : S100000x40.Idx) : ∃ t : Fin cfg5.N, (cfg5.win 2).flush t = true ∧ i ∈ ((cfg5.win 2).blk t).view.set := by
  have hi0 : (i 0).val < 100000 := (i 0).isLt
  have hi1 : (i 1).val < 40 := (i 1).isLt
  have hN : cfg5.N = 10 := N_5
  let t : Fin cfg5.N := ⟨(i 0).val / 10000, by rw [hN]; omega⟩
  obtain ⟨e00, e01, e10, e11, e20, e21⟩ := blockIndex5 t
  have ht : t.val = (i 0).val / 10000 := rfl
  refine ⟨t, flush5_2 t, ?_⟩
  rw [memBlock5]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 40 ≤ (i 1).val ∧ (i 1).val < win5_2.index t (1 : Fin 2) * 40 + 40; omega

/-- The result array after the launch. -/
theorem array5 (c : Dev nD) :
    (dat5 (F := Ideal) V c).arrAt 2 cfg5.N
      = GcnSpec.logSoftmaxRows 100000 40 (GcnSpec.addRow 100000 40 (V c (Pipeline.arrRef spec5 0)) (V c (Pipeline.arrRef spec5 1))) :=
  (dat5 (F := Ideal) V c).arrAt_eq_of_cover 2 _ (fun t _ => flushed5 V c t) cover5

end Cert.KernelIdeal.Bridge

end
-- ==== Proof.KernelFold.lean ====
/-
  The idealized kernel's result as a function of its arguments.

  The buffers at the ten segment boundaries of @main are a fold from the launch memory. Walking the fold forwards, each
  boundary's contents at the buffers that later segments read are named here: the index lists and the per-edge
  normalisation after the first host stretch; after each dense launch the product of the rows so far with the layer's
  weights; after each host stretch the aggregation of that product along the edges and the layer's bias as a row; after
  each bias launch the rectified sum — and after the last launch the row-wise log-softmax of the last aggregation plus
  bias. A launch changes only its result array, a host stretch only the buffers its operations write.
-/
import proofs.«159919_j25795573580199_1_alg».proof.Proof.Gen.KernelIdeal.Frame
import proofs.«159919_j25795573580199_1_alg».proof.Proof.GcnSpec
import proofs.«159919_j25795573580199_1_alg».proof.Proof.GraphK
import proofs.«159919_j25795573580199_1_alg».proof.Proof.KernelHost
import proofs.«159919_j25795573580199_1_alg».proof.Proof.Linear0
import proofs.«159919_j25795573580199_1_alg».proof.Proof.Linear2
import proofs.«159919_j25795573580199_1_alg».proof.Proof.Linear4
import proofs.«159919_j25795573580199_1_alg».proof.Proof.BiasRelu1
import proofs.«159919_j25795573580199_1_alg».proof.Proof.BiasRelu3
import proofs.«159919_j25795573580199_1_alg».proof.Proof.LogSoftmax5

set_option maxRecDepth 16384

noncomputable section

namespace Cert.KernelIdeal.Bridge

open Idealize.ShloMosaic Idealize.ShloMosaic.TcCoe
open Cert.KernelIdeal Cert.KernelIdeal.Gen Cert.KernelIdeal.Graph

variable (m : (ℓ : Loc nD τ sig) → Buf (Elt Ideal) ℓ) (ρ : Dev nD → PrngReg) (c : Dev nD)

/-! ## After the first stretch of host operations -/

theorem w1_v5 : W1 m ρ c (Proc.devRef .tc main_v5) = (srcAll (m ((c : Thread nD τ).loc main_arg1))) :=
  host0_src (W0 m ρ c)
theorem w1_v6 : W1 m ρ c (Proc.devRef .tc main_v6) = (dstAll (m ((c : Thread nD τ).loc main_arg1))) :=
  host0_dst (W0 m ρ c)
theorem w1_v31 : W1 m ρ c (Proc.devRef .tc main_v31) = (edgeNorm (srcAll (m ((c : Thread nD τ).loc main_arg1))) (dstAll (m ((c : Thread nD τ).loc main_arg1)))) :=
  host0_norm (W0 m ρ c)
theorem w1_arg0 : W1 m ρ c (Proc.devRef .tc main_arg0) = (m ((c : Thread nD τ).loc main_arg0)) :=
  keep0_arg0 (W0 m ρ c)
theorem w1_arg2 : W1 m ρ c (Proc.devRef .tc main_arg2) = (m ((c : Thread nD τ).loc main_arg2)) :=
  keep0_arg2 (W0 m ρ c)
theorem w1_arg3 : W1 m ρ c (Proc.devRef .tc main_arg3) = (m ((c : Thread nD τ).loc main_arg3)) :=
  keep0_arg3 (W0 m ρ c)
theorem w1_arg4 : W1 m ρ c (Proc.devRef .tc main_arg4) = (m ((c : Thread nD τ).loc main_arg4)) :=
  keep0_arg4 (W0 m ρ c)
theorem w1_arg5 : W1 m ρ c (Proc.devRef .tc main_arg5) = (m ((c : Thread nD τ).loc main_arg5)) :=
  keep0_arg5 (W0 m ρ c)
theorem w1_arg6 : W1 m ρ c (Proc.devRef .tc main_arg6) = (m ((c : Thread nD τ).loc main_arg6)) :=
  keep0_arg6 (W0 m ρ c)
theorem w1_arg7 : W1 m ρ c (Proc.devRef .tc main_arg7) = (m ((c : Thread nD τ).loc main_arg7)) :=
  keep0_arg7 (W0 m ρ c)

/-! ## After the first dense launch -/

theorem w2_v32 : W2 m ρ c (Proc.devRef .tc main_v32) = (GcnSpec.rowsTimes 100000 128 64 (m ((c : Thread nD τ).loc main_arg0)) (m ((c : Thread nD τ).loc main_arg2))) := by
  refine (W2_arr m ρ c 2).trans ((array0 (V1 m ρ) c).trans ?_)
  show GcnSpec.rowsTimes 100000 128 64 (W1 m ρ c (Proc.devRef .tc main_arg0)) (W1 m ρ c (Proc.devRef .tc main_arg2)) = _
  rw [w1_arg0, w1_arg2]
theorem w2_v5 : W2 m ρ c (Proc.devRef .tc main_v5) = (srcAll (m ((c : Thread nD τ).loc main_arg1))) :=
  (W2_of_ne m ρ c main_v5 (by decide)).trans (w1_v5 m ρ c)
theorem w2_v6 : W2 m ρ c (Proc.devRef .tc main_v6) = (dstAll (m ((c : Thread nD τ).loc main_arg1))) :=
  (W2_of_ne m ρ c main_v6 (by decide)).trans (w1_v6 m ρ c)
theorem w2_v31 : W2 m ρ c (Proc.devRef .tc main_v31) = (edgeNorm (srcAll (m ((c : Thread nD τ).loc main_arg1))) (dstAll (m ((c : Thread nD τ).loc main_arg1)))) :=
  (W2_of_ne m ρ c main_v31 (by decide)).trans (w1_v31 m ρ c)
theorem w2_arg3 : W2 m ρ c (Proc.devRef .tc main_arg3) = (m ((c : Thread nD τ).loc main_arg3)) :=
  (W2_of_ne m ρ c main_arg3 (by decide)).trans (w1_arg3 m ρ c)
theorem w2_arg4 : W2 m ρ c (Proc.devRef .tc main_arg4) = (m ((c : Thread nD τ).loc main_arg4)) :=
  (W2_of_ne m ρ c main_arg4 (by decide)).trans (w1_arg4 m ρ c)
theorem w2_arg5 : W2 m ρ c (Proc.devRef .tc main_arg5) = (m ((c : Thread nD τ).loc main_arg5)) :=
  (W2_of_ne m ρ c main_arg5 (by decide)).trans (w1_arg5 m ρ c)
theorem w2_arg6 : W2 m ρ c (Proc.devRef .tc main_arg6) = (m ((c : Thread nD τ).loc main_arg6)) :=
  (W2_of_ne m ρ c main_arg6 (by decide)).trans (w1_arg6 m ρ c)
theorem w2_arg7 : W2 m ρ c (Proc.devRef .tc main_arg7) = (m ((c : Thread nD τ).loc main_arg7)) :=
  (W2_of_ne m ρ c main_arg7 (by decide)).trans (w1_arg7 m ρ c)

/-! ## After the first aggregation -/

theorem w3_v50 : W3 m ρ c (Proc.devRef .tc main_v50) = (aggregate64 (srcAll (m ((c : Thread nD τ).loc main_arg1))) (dstAll (m ((c : Thread nD τ).loc main_arg1))) (edgeNorm (srcAll (m ((c : Thread nD τ).loc main_arg1))) (dstAll (m ((c : Thread nD τ).loc main_arg1)))) (GcnSpec.rowsTimes 100000 128 64 (m ((c : Thread nD τ).loc main_arg0)) (m ((c : Thread nD τ).loc main_arg2)))) :=
  (host1_agg (W2 m ρ c)).trans (by rw [w2_v5, w2_v6, w2_v31, w2_v32])
theorem w3_v51 : W3 m ρ c (Proc.devRef .tc main_v51) = (shapeCast S1x64 (m ((c : Thread nD τ).loc main_arg3)) shapeCasts_S64_S1x64) :=
  (host1_bias (W2 m ρ c)).trans (by rw [w2_arg3])
theorem w3_v5 : W3 m ρ c (Proc.devRef .tc main_v5) = (srcAll (m ((c : Thread nD τ).loc main_arg1))) :=
  (keep1_v5 (W2 m ρ c)).trans (w2_v5 m ρ c)
theorem w3_v6 : W3 m ρ c (Proc.devRef .tc main_v6) = (dstAll (m ((c : Thread nD τ).loc main_arg1))) :=
  (keep1_v6 (W2 m ρ c)).trans (w2_v6 m ρ c)
theorem w3_v31 : W3 m ρ c (Proc.devRef .tc main_v31) = (edgeNorm (srcAll (m ((c : Thread nD τ).loc main_arg1))) (dstAll (m ((c : Thread nD τ).loc main_arg1)))) :=
  (keep1_v31 (W2 m ρ c)).trans (w2_v31 m ρ c)
theorem w3_arg4 : W3 m ρ c (Proc.devRef .tc main_arg4) = (m ((c : Thread nD τ).loc main_arg4)) :=
  (keep1_arg4 (W2 m ρ c)).trans (w2_arg4 m ρ c)
theorem w3_arg5 : W3 m ρ c (Proc.devRef .tc main_arg5) = (m ((c : Thread nD τ).loc main_arg5)) :=
  (keep1_arg5 (W2 m ρ c)).trans (w2_arg5 m ρ c)
theorem w3_arg6 : W3 m ρ c (Proc.devRef .tc main_arg6) = (m ((c : Thread nD τ).loc main_arg6)) :=
  (keep1_arg6 (W2 m ρ c)).trans (w2_arg6 m ρ c)
theorem w3_arg7 : W3 m ρ c (Proc.devRef .tc main_arg7) = (m ((c : Thread nD τ).loc main_arg7)) :=
  (keep1_arg7 (W2 m ρ c)).trans (w2_arg7 m ρ c)

/-! ## After the first bias-and-rectify launch, and the second dense launch -/

theorem w4_v52 : W4 m ρ c (Proc.devRef .tc main_v52) = (GcnSpec.biasRelu 100000 64 (aggregate64 (srcAll (m ((c : Thread nD τ).loc main_arg1))) (dstAll (m ((c : Thread nD τ).loc main_arg1))) (edgeNorm (srcAll (m ((c : Thread nD τ).loc main_arg1))) (dstAll (m ((c : Thread nD τ).loc main_arg1)))) (GcnSpec.rowsTimes 100000 128 64 (m ((c : Thread nD τ).loc main_arg0)) (m ((c : Thread nD τ).loc main_arg2)))) (shapeCast S1x64 (m ((c : Thread nD τ).loc main_arg3)) shapeCasts_S64_S1x64)) := by
  refine (W4_arr m ρ c 2).trans ((array1 (V3 m ρ) c).trans ?_)
  show GcnSpec.biasRelu 100000 64 (W3 m ρ c (Proc.devRef .tc main_v50)) (W3 m ρ c (Proc.devRef .tc main_v51)) = _
  rw [w3_v50, w3_v51]
theorem w4_v5 : W4 m ρ c (Proc.devRef .tc main_v5) = (srcAll (m ((c : Thread nD τ).loc main_arg1))) :=
  (W4_of_ne m ρ c main_v5 (by decide)).trans (w3_v5 m ρ c)
theorem w4_v6 : W4 m ρ c (Proc.devRef .tc main_v6) = (dstAll (m ((c : Thread nD τ).loc main_arg1))) :=
  (W4_of_ne m ρ c main_v6 (by decide)).trans (w3_v6 m ρ c)
theorem w4_v31 : W4 m ρ c (Proc.devRef .tc main_v31) = (edgeNorm (srcAll (m ((c : Thread nD τ).loc main_arg1))) (dstAll (m ((c : Thread nD τ).loc main_arg1)))) :=
  (W4_of_ne m ρ c main_v31 (by decide)).trans (w3_v31 m ρ c)
theorem w4_arg4 : W4 m ρ c (Proc.devRef .tc main_arg4) = (m ((c : Thread nD τ).loc main_arg4)) :=
  (W4_of_ne m ρ c main_arg4 (by decide)).trans (w3_arg4 m ρ c)
theorem w4_arg5 : W4 m ρ c (Proc.devRef .tc main_arg5) = (m ((c : Thread nD τ).loc main_arg5)) :=
  (W4_of_ne m ρ c main_arg5 (by decide)).trans (w3_arg5 m ρ c)
theorem w4_arg6 : W4 m ρ c (Proc.devRef .tc main_arg6) = (m ((c : Thread nD τ).loc main_arg6)) :=
  (W4_of_ne m ρ c main_arg6 (by decide)).trans (w3_arg6 m ρ c)
theorem w4_arg7 : W4 m ρ c (Proc.devRef .tc main_arg7) = (m ((c : Thread nD τ).loc main_arg7)) :=
  (W4_of_ne m ρ c main_arg7 (by decide)).trans (w3_arg7 m ρ c)
theorem w5_v53 : W5 m ρ c (Proc.devRef .tc main_v53) = (GcnSpec.rowsTimes 100000 64 64 (GcnSpec.biasRelu 100000 64 (aggregate64 (srcAll (m ((c : Thread nD τ).loc main_arg1))) (dstAll (m ((c : Thread nD τ).loc main_arg1))) (edgeNorm (srcAll (m ((c : Thread nD τ).loc main_arg1))) (dstAll (m ((c : Thread nD τ).loc main_arg1)))) (GcnSpec.rowsTimes 100000 128 64 (m ((c : Thread nD τ).loc main_arg0)) (m ((c : Thread nD τ).loc main_arg2)))) (shapeCast S1x64 (m ((c : Thread nD τ).loc main_arg3)) shapeCasts_S64_S1x64)) (m ((c : Thread nD τ).loc main_arg4))) := by
  refine (W5_arr m ρ c 2).trans ((array2 (V4 m ρ) c).trans ?_)
  show GcnSpec.rowsTimes 100000 64 64 (W4 m ρ c (Proc.devRef .tc main_v52)) (W4 m ρ c (Proc.devRef .tc main_arg4)) = _
  rw [w4_v52, w4_arg4]
theorem w5_v5 : W5 m ρ c (Proc.devRef .tc main_v5) = (srcAll (m ((c : Thread nD τ).loc main_arg1))) :=
  (W5_of_ne m ρ c main_v5 (by decide)).trans (w4_v5 m ρ c)
theorem w5_v6 : W5 m ρ c (Proc.devRef .tc main_v6) = (dstAll (m ((c : Thread nD τ).loc main_arg1))) :=
  (W5_of_ne m ρ c main_v6 (by decide)).trans (w4_v6 m ρ c)
theorem w5_v31 : W5 m ρ c (Proc.devRef .tc main_v31) = (edgeNorm (srcAll (m ((c : Thread nD τ).loc main_arg1))) (dstAll (m ((c : Thread nD τ).loc main_arg1)))) :=
  (W5_of_ne m ρ c main_v31 (by decide)).trans (w4_v31 m ρ c)
theorem w5_arg5 : W5 m ρ c (Proc.devRef .tc main_arg5) = (m ((c : Thread nD τ).loc main_arg5)) :=
  (W5_of_ne m ρ c main_arg5 (by decide)).trans (w4_arg5 m ρ c)
theorem w5_arg6 : W5 m ρ c (Proc.devRef .tc main_arg6) = (m ((c : Thread nD τ).loc main_arg6)) :=
  (W5_of_ne m ρ c main_arg6 (by decide)).trans (w4_arg6 m ρ c)
theorem w5_arg7 : W5 m ρ c (Proc.devRef .tc main_arg7) = (m ((c : Thread nD τ).loc main_arg7)) :=
  (W5_of_ne m ρ c main_arg7 (by decide)).trans (w4_arg7 m ρ c)

/-! ## After the second aggregation -/

theorem w6_v71 : W6 m ρ c (Proc.devRef .tc main_v71) = (aggregate64 (srcAll (m ((c : Thread nD τ).loc main_arg1))) (dstAll (m ((c : Thread nD τ).loc main_arg1))) (edgeNorm (srcAll (m ((c : Thread nD τ).loc main_arg1))) (dstAll (m ((c : Thread nD τ).loc main_arg1)))) (GcnSpec.rowsTimes 100000 64 64 (GcnSpec.biasRelu 100000 64 (aggregate64 (srcAll (m ((c : Thread nD τ).loc main_arg1))) (dstAll (m ((c : Thread nD τ).loc main_arg1))) (edgeNorm (srcAll (m ((c : Thread nD τ).loc main_arg1))) (dstAll (m ((c : Thread nD τ).loc main_arg1)))) (GcnSpec.rowsTimes 100000 128 64 (m ((c : Thread nD τ).loc main_arg0)) (m ((c : Thread nD τ).loc main_arg2)))) (shapeCast S1x64 (m ((c : Thread nD τ).loc main_arg3)) shapeCasts_S64_S1x64)) (m ((c : Thread nD τ).loc main_arg4)))) :=
  (host3_agg (W5 m ρ c)).trans (by rw [w5_v5, w5_v6, w5_v31, w5_v53])
theorem w6_v72 : W6 m ρ c (Proc.devRef .tc main_v72) = (shapeCast S1x64 (m ((c : Thread nD τ).loc main_arg5)) shapeCasts_S64_S1x64) :=
  (host3_bias (W5 m ρ c)).trans (by rw [w5_arg5])
theorem w6_v5 : W6 m ρ c (Proc.devRef .tc main_v5) = (srcAll (m ((c : Thread nD τ).loc main_arg1))) :=
  (keep3_v5 (W5 m ρ c)).trans (w5_v5 m ρ c)
theorem w6_v6 : W6 m ρ c (Proc.devRef .tc main_v6) = (dstAll (m ((c : Thread nD τ).loc main_arg1))) :=
  (keep3_v6 (W5 m ρ c)).trans (w5_v6 m ρ c)
theorem w6_v31 : W6 m ρ c (Proc.devRef .tc main_v31) = (edgeNorm (srcAll (m ((c : Thread nD τ).loc main_arg1))) (dstAll (m ((c : Thread nD τ).loc main_arg1)))) :=
  (keep3_v31 (W5 m ρ c)).trans (w5_v31 m ρ c)
theorem w6_arg6 : W6 m ρ c (Proc.devRef .tc main_arg6) = (m ((c : Thread nD τ).loc main_arg6)) :=
  (keep3_arg6 (W5 m ρ c)).trans (w5_arg6 m ρ c)
theorem w6_arg7 : W6 m ρ c (Proc.devRef .tc main_arg7) = (m ((c : Thread nD τ).loc main_arg7)) :=
  (keep3_arg7 (W5 m ρ c)).trans (w5_arg7 m ρ c)

/-! ## After the second bias-and-rectify launch, and the third dense launch -/

theorem w7_v73 : W7 m ρ c (Proc.devRef .tc main_v73) = (GcnSpec.biasRelu 100000 64 (aggregate64 (srcAll (m ((c : Thread nD τ).loc main_arg1))) (dstAll (m ((c : Thread nD τ).loc main_arg1))) (edgeNorm (srcAll (m ((c : Thread nD τ).loc main_arg1))) (dstAll (m ((c : Thread nD τ).loc main_arg1)))) (GcnSpec.rowsTimes 100000 64 64 (GcnSpec.biasRelu 100000 64 (aggregate64 (srcAll (m ((c : Thread nD τ).loc main_arg1))) (dstAll (m ((c : Thread nD τ).loc main_arg1))) (edgeNorm (srcAll (m ((c : Thread nD τ).loc main_arg1))) (dstAll (m ((c : Thread nD τ).loc main_arg1)))) (GcnSpec.rowsTimes 100000 128 64 (m ((c : Thread nD τ).loc main_arg0)) (m ((c : Thread nD τ).loc main_arg2)))) (shapeCast S1x64 (m ((c : Thread nD τ).loc main_arg3)) shapeCasts_S64_S1x64)) (m ((c : Thread nD τ).loc main_arg4)))) (shapeCast S1x64 (m ((c : Thread nD τ).loc main_arg5)) shapeCasts_S64_S1x64)) := by
  refine (W7_arr m ρ c 2).trans ((array3 (V6 m ρ) c).trans ?_)
  show GcnSpec.biasRelu 100000 64 (W6 m ρ c (Proc.devRef .tc main_v71)) (W6 m ρ c (Proc.devRef .tc main_v72)) = _
  rw [w6_v71, w6_v72]
theorem w7_v5 : W7 m ρ c (Proc.devRef .tc main_v5) = (srcAll (m ((c : Thread nD τ).loc main_arg1))) :=
  (W7_of_ne m ρ c main_v5 (by decide)).trans (w6_v5 m ρ c)
theorem w7_v6 : W7 m ρ c (Proc.devRef .tc main_v6) = (dstAll (m ((c : Thread nD τ).loc main_arg1))) :=
  (W7_of_ne m ρ c main_v6 (by decide)).trans (w6_v6 m ρ c)
theorem w7_v31 : W7 m ρ c (Proc.devRef .tc main_v31) = (edgeNorm (srcAll (m ((c : Thread nD τ).loc main_arg1))) (dstAll (m ((c : Thread nD τ).loc main_arg1)))) :=
  (W7_of_ne m ρ c main_v31 (by decide)).trans (w6_v31 m ρ c)
theorem w7_arg6 : W7 m ρ c (Proc.devRef .tc main_arg6) = (m ((c : Thread nD τ).loc main_arg6)) :=
  (W7_of_ne m ρ c main_arg6 (by decide)).trans (w6_arg6 m ρ c)
theorem w7_arg7 : W7 m ρ c (Proc.devRef .tc main_arg7) = (m ((c : Thread nD τ).loc main_arg7)) :=
  (W7_of_ne m ρ c main_arg7 (by decide)).trans (w6_arg7 m ρ c)
theorem w8_v74 : W8 m ρ c (Proc.devRef .tc main_v74) = (GcnSpec.rowsTimes 100000 64 40 (GcnSpec.biasRelu 100000 64 (aggregate64 (srcAll (m ((c : Thread nD τ).loc main_arg1))) (dstAll (m ((c : Thread nD τ).loc main_arg1))) (edgeNorm (srcAll (m ((c : Thread nD τ).loc main_arg1))) (dstAll (m ((c : Thread nD τ).loc main_arg1)))) (GcnSpec.rowsTimes 100000 64 64 (GcnSpec.biasRelu 100000 64 (aggregate64 (srcAll (m ((c : Thread nD τ).loc main_arg1))) (dstAll (m ((c : Thread nD τ).loc main_arg1))) (edgeNorm (srcAll (m ((c : Thread nD τ).loc main_arg1))) (dstAll (m ((c : Thread nD τ).loc main_arg1)))) (GcnSpec.rowsTimes 100000 128 64 (m ((c : Thread nD τ).loc main_arg0)) (m ((c : Thread nD τ).loc main_arg2)))) (shapeCast S1x64 (m ((c : Thread nD τ).loc main_arg3)) shapeCasts_S64_S1x64)) (m ((c : Thread nD τ).loc main_arg4)))) (shapeCast S1x64 (m ((c : Thread nD τ).loc main_arg5)) shapeCasts_S64_S1x64)) (m ((c : Thread nD τ).loc main_arg6))) := by
  refine (W8_arr m ρ c 2).trans ((array4 (V7 m ρ) c).trans ?_)
  show GcnSpec.rowsTimes 100000 64 40 (W7 m ρ c (Proc.devRef .tc main_v73)) (W7 m ρ c (Proc.devRef .tc main_arg6)) = _
  rw [w7_v73, w7_arg6]
theorem w8_v5 : W8 m ρ c (Proc.devRef .tc main_v5) = (srcAll (m ((c : Thread nD τ).loc main_arg1))) :=
  (W8_of_ne m ρ c main_v5 (by decide)).trans (w7_v5 m ρ c)
theorem w8_v6 : W8 m ρ c (Proc.devRef .tc main_v6) = (dstAll (m ((c : Thread nD τ).loc main_arg1))) :=
  (W8_of_ne m ρ c main_v6 (by decide)).trans (w7_v6 m ρ c)
theorem w8_v31 : W8 m ρ c (Proc.devRef .tc main_v31) = (edgeNorm (srcAll (m ((c : Thread nD τ).loc main_arg1))) (dstAll (m ((c : Thread nD τ).loc main_arg1)))) :=
  (W8_of_ne m ρ c main_v31 (by decide)).trans (w7_v31 m ρ c)
theorem w8_arg7 : W8 m ρ c (Proc.devRef .tc main_arg7) = (m ((c : Thread nD τ).loc main_arg7)) :=
  (W8_of_ne m ρ c main_arg7 (by decide)).trans (w7_arg7 m ρ c)

/-! ## After the third aggregation, and the last launch -/

theorem w9_v92 : W9 m ρ c (Proc.devRef .tc main_v92) = (aggregate40 (srcAll (m ((c : Thread nD τ).loc main_arg1))) (dstAll (m ((c : Thread nD τ).loc main_arg1))) (edgeNorm (srcAll (m ((c : Thread nD τ).loc main_arg1))) (dstAll (m ((c : Thread nD τ).loc main_arg1)))) (GcnSpec.rowsTimes 100000 64 40 (GcnSpec.biasRelu 100000 64 (aggregate64 (srcAll (m ((c : Thread nD τ).loc main_arg1))) (dstAll (m ((c : Thread nD τ).loc main_arg1))) (edgeNorm (srcAll (m ((c : Thread nD τ).loc main_arg1))) (dstAll (m ((c : Thread nD τ).loc main_arg1)))) (GcnSpec.rowsTimes 100000 64 64 (GcnSpec.biasRelu 100000 64 (aggregate64 (srcAll (m ((c : Thread nD τ).loc main_arg1))) (dstAll (m ((c : Thread nD τ).loc main_arg1))) (edgeNorm (srcAll (m ((c : Thread nD τ).loc main_arg1))) (dstAll (m ((c : Thread nD τ).loc main_arg1)))) (GcnSpec.rowsTimes 100000 128 64 (m ((c : Thread nD τ).loc main_arg0)) (m ((c : Thread nD τ).loc main_arg2)))) (shapeCast S1x64 (m ((c : Thread nD τ).loc main_arg3)) shapeCasts_S64_S1x64)) (m ((c : Thread nD τ).loc main_arg4)))) (shapeCast S1x64 (m ((c : Thread nD τ).loc main_arg5)) shapeCasts_S64_S1x64)) (m ((c : Thread nD τ).loc main_arg6)))) :=
  (host5_agg (W8 m ρ c)).trans (by rw [w8_v5, w8_v6, w8_v31, w8_v74])
theorem w9_v93 : W9 m ρ c (Proc.devRef .tc main_v93) = (shapeCast S1x40 (m ((c : Thread nD τ).loc main_arg7)) shapeCasts_S40_S1x40) :=
  (host5_bias (W8 m ρ c)).trans (by rw [w8_arg7])
theorem w10_v94 : W10 m ρ c (Proc.devRef .tc main_v94) = (GcnSpec.logSoftmaxRows 100000 40 (GcnSpec.addRow 100000 40 (aggregate40 (srcAll (m ((c : Thread nD τ).loc main_arg1))) (dstAll (m ((c : Thread nD τ).loc main_arg1))) (edgeNorm (srcAll (m ((c : Thread nD τ).loc main_arg1))) (dstAll (m ((c : Thread nD τ).loc main_arg1)))) (GcnSpec.rowsTimes 100000 64 40 (GcnSpec.biasRelu 100000 64 (aggregate64 (srcAll (m ((c : Thread nD τ).loc main_arg1))) (dstAll (m ((c : Thread nD τ).loc main_arg1))) (edgeNorm (srcAll (m ((c : Thread nD τ).loc main_arg1))) (dstAll (m ((c : Thread nD τ).loc main_arg1)))) (GcnSpec.rowsTimes 100000 64 64 (GcnSpec.biasRelu 100000 64 (aggregate64 (srcAll (m ((c : Thread nD τ).loc main_arg1))) (dstAll (m ((c : Thread nD τ).loc main_arg1))) (edgeNorm (srcAll (m ((c : Thread nD τ).loc main_arg1))) (dstAll (m ((c : Thread nD τ).loc main_arg1)))) (GcnSpec.rowsTimes 100000 128 64 (m ((c : Thread nD τ).loc main_arg0)) (m ((c : Thread nD τ).loc main_arg2)))) (shapeCast S1x64 (m ((c : Thread nD τ).loc main_arg3)) shapeCasts_S64_S1x64)) (m ((c : Thread nD τ).loc main_arg4)))) (shapeCast S1x64 (m ((c : Thread nD τ).loc main_arg5)) shapeCasts_S64_S1x64)) (m ((c : Thread nD τ).loc main_arg6)))) (shapeCast S1x40 (m ((c : Thread nD τ).loc main_arg7)) shapeCasts_S40_S1x40))) := by
  refine (W10_arr m ρ c 2).trans ((array5 (V9 m ρ) c).trans ?_)
  show GcnSpec.logSoftmaxRows 100000 40 (GcnSpec.addRow 100000 40 (W9 m ρ c (Proc.devRef .tc main_v92)) (W9 m ρ c (Proc.devRef .tc main_v93))) = _
  rw [w9_v92, w9_v93]

end Cert.KernelIdeal.Bridge

end
-- ==== Proof.GraphR.lean ====
/-
  The graph side of the layer, in the idealized reference's own spelling: how the edge list becomes source and destination
  index lists with the self loops appended, the per-edge normalisation, and one aggregation over the edges. These are the
  host operations of @main around each dense product, grouped and named; nothing here is computed or opened.
-/
import proofs.«159919_j25795573580199_1_alg».proof.ReferenceIdeal
import proofs.«159919_j25795573580199_1_alg».proof.Proof.Gen.ReferenceIdeal
import Idealize.ShloMosaic.Lib.StableHlo.Run

noncomputable section

namespace Cert.ReferenceIdeal.Graph

open Idealize.ShloMosaic Idealize.ShloMosaic.TcCoe
open Cert.ReferenceIdeal Cert.ReferenceIdeal.Gen

variable {F : FTy → Type} [FloatOps F]

/-- The edge endpoints followed by the self-loop endpoints: the program's two-operand concatenation, as a plain function
    of its two operands. -/
def edgesThenLoops (a : (⟨S1200000, .i32⟩ : BufTy).Contents (Elt F)) (b : (⟨S100000, .i32⟩ : BufTy).Contents (Elt F)) :
    (⟨S1300000, .i32⟩ : BufTy).Contents (Elt F) :=
  concatenate S1300000 0 [⟨S1200000, a⟩, ⟨S100000, b⟩] concatenates_S1200000_S100000_S1300000_d0

theorem edgesThenLoops_eq (a : (⟨S1200000, .i32⟩ : BufTy).Contents (Elt F)) (b : (⟨S100000, .i32⟩ : BufTy).Contents (Elt F)) :
    concatenate S1300000 0 [⟨S1200000, a⟩, ⟨S100000, b⟩] concatenates_S1200000_S100000_S1300000_d0 = edgesThenLoops (F := F) a b := rfl

/-- Row 0 of the edge list (the sources), then the nodes themselves (the self loops). -/
def srcAll (ei : (⟨S2x1200000, .i32⟩ : BufTy).Contents (Elt F)) : (⟨S1300000, .i32⟩ : BufTy).Contents (Elt F) :=
  edgesThenLoops (F := F)
    (shapeCast S1200000 (extractStridedSlice S1x1200000 ![0, 0] ei slices_S2x1200000_S1x1200000_0_0) shapeCasts_S1x1200000_S1200000)
    (iotaInDim S100000 32 0)

/-- Row 1 of the edge list (the destinations), then the nodes themselves. -/
def dstAll (ei : (⟨S2x1200000, .i32⟩ : BufTy).Contents (Elt F)) : (⟨S1300000, .i32⟩ : BufTy).Contents (Elt F) :=
  edgesThenLoops (F := F)
    (shapeCast S1200000 (extractStridedSlice S1x1200000 ![1, 0] ei slices_S2x1200000_S1x1200000_1_0) shapeCasts_S1x1200000_S1200000)
    (iotaInDim S100000 32 0)

/-- A node index as the gathers and scatters take it: a negative index has the node count added, and the list becomes a
    column of one-entry index vectors. -/
def wrap (a : (⟨S1300000, .i32⟩ : BufTy).Contents (Elt F)) : (⟨S1300000x1, .i32⟩ : BufTy).Contents (Elt F) :=
  broadcastInDim S1300000x1 ![0] bcast_S1300000_S1300000x1_0
    (select (cmpi .slt a (broadcastInDim S1300000 ![] bcast_S_S1300000 (constantI S_ 32 0#32)))
      (addi a (broadcastInDim S1300000 ![] bcast_S_S1300000 (constantI S_ 32 100000#32))) a)

/-- One over the square root of each node's in-degree (ones scattered onto zeros along the destinations). -/
def invSqrtDeg (d : (⟨S1300000, .i32⟩ : BufTy).Contents (Elt F)) : (⟨S100000, .f32⟩ : BufTy).Contents (Elt F) :=
  Host.rsqrt (Host.scatterAdd scatter_S100000_S1300000x1_S1300000_n_0_0_1
    (broadcastInDim S100000 ![] bcast_S_S100000 (constant S_ .f32 0x00000000#32)) (wrap d)
    (broadcastInDim S1300000 ![] bcast_S_S1300000 (constant S_ .f32 0x3F800000#32)))

/-- The symmetric normalisation of each edge: the factor of its source times the factor of its destination. -/
def edgeNorm (s d : (⟨S1300000, .i32⟩ : BufTy).Contents (Elt F)) : (⟨S1300000, .f32⟩ : BufTy).Contents (Elt F) :=
  mulf (Host.gather gather_S100000_S1300000x1_S1300000_n_0_n_n_0_1_1 (invSqrtDeg d) (wrap s))
    (Host.gather gather_S100000_S1300000x1_S1300000_n_0_n_n_0_1_1 (invSqrtDeg d) (wrap d))

/-- One aggregation over the edges of 64-wide rows: the source's row times the edge's factor, summed into the destination's row. -/
def aggregate64 (s d : (⟨S1300000, .i32⟩ : BufTy).Contents (Elt F)) (nrm : (⟨S1300000, .f32⟩ : BufTy).Contents (Elt F))
    (h : (⟨S100000x64, .f32⟩ : BufTy).Contents (Elt F)) : (⟨S100000x64, .f32⟩ : BufTy).Contents (Elt F) :=
  Host.scatterAdd scatter_S100000x64_S1300000x1_S1300000x64_1_0_0_1
    (broadcastInDim S100000x64 ![] bcast_S_S100000x64 (constant S_ .f32 0x00000000#32)) (wrap d)
    (mulf (Host.gather gather_S100000x64_S1300000x1_S1300000x64_1_0_n_n_0_1_164 h (wrap s))
      (broadcastInDim S1300000x64 ![0, 1] bcast_S1300000x1_S1300000x64_0_1
        (broadcastInDim S1300000x1 ![0] bcast_S1300000_S1300000x1_0 nrm)))

/-- The same aggregation of 40-wide rows. -/
def aggregate40 (s d : (⟨S1300000, .i32⟩ : BufTy).Contents (Elt F)) (nrm : (⟨S1300000, .f32⟩ : BufTy).Contents (Elt F))
    (h : (⟨S100000x40, .f32⟩ : BufTy).Contents (Elt F)) : (⟨S100000x40, .f32⟩ : BufTy).Contents (Elt F) :=
  Host.scatterAdd scatter_S100000x40_S1300000x1_S1300000x40_1_0_0_1
    (broadcastInDim S100000x40 ![] bcast_S_S100000x40 (constant S_ .f32 0x00000000#32)) (wrap d)
    (mulf (Host.gather gather_S100000x40_S1300000x1_S1300000x40_1_0_n_n_0_1_140 h (wrap s))
      (broadcastInDim S1300000x40 ![0, 1] bcast_S1300000x1_S1300000x40_0_1
        (broadcastInDim S1300000x1 ![0] bcast_S1300000_S1300000x1_0 nrm)))

/-- What a line of host operations leaves in one buffer: each operation's result at its own buffer is its function of its
    operands' contents, and at any other buffer what was there before it. -/
macro "host_results" : tactic =>
  `(tactic| simp (disch := decide) only [StableHlo.after_cons, StableHlo.after_nil,
      StableHlo.nullary_result', StableHlo.unary_result', StableHlo.binary_result', StableHlo.ternary_result', StableHlo.reshape_result',
      StableHlo.nullary_result_ne', StableHlo.unary_result_ne', StableHlo.binary_result_ne', StableHlo.ternary_result_ne', StableHlo.reshape_result_ne'])

end Cert.ReferenceIdeal.Graph

end
-- ==== Proof.RefNet.lean ====
/-
  The idealized reference's network, as the host composes it: three times a dense product, the aggregation along the
  edges (the graph side named, module GraphR) and the bias — with the maximum with zero after the first two layers and the
  row-wise log-softmax after the third. Definitions only.
-/
import proofs.«159919_j25795573580199_1_alg».proof.Proof.GraphR

noncomputable section

namespace Cert.ReferenceIdeal.Bridge

open Idealize.ShloMosaic Idealize.ShloMosaic.TcCoe
open Cert.ReferenceIdeal Cert.ReferenceIdeal.Gen Cert.ReferenceIdeal.Graph

variable {F : FTy → Type} [FloatOps F]

/-- A bias vector added to every row, then the maximum with zero, as the host spells it. -/
def hostRelu64 (a : (⟨S100000x64, .f32⟩ : BufTy).Contents (Elt F)) (b : (⟨S64, .f32⟩ : BufTy).Contents (Elt F)) :
    (⟨S100000x64, .f32⟩ : BufTy).Contents (Elt F) :=
  maximumf (addf a (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- An array minus its row maxima (each row's maximum, and minus infinity, whichever is larger), as the host spells it. -/
def hostShift40 (y : (⟨S100000x40, .f32⟩ : BufTy).Contents (Elt F)) : (⟨S100000x40, .f32⟩ : BufTy).Contents (Elt F) :=
  subf y (broadcastInDim S100000x40 ![0, 1] bcast_S100000x1_S100000x40_0_1 (broadcastInDim S100000x1 ![0] bcast_S100000_S100000x1_0
    (maximumf (broadcastInDim S100000 ![] bcast_S_S100000 (constant S_ .f32 0xFF800000#32))
      (Host.reduce FloatOps.maximumf y (constant S_ .f32 0xFF800000#32) reducesTo_S100000x40_S100000_d1 h_S_))))

/-- The row-wise log-softmax, as the host spells it. -/
def hostLogSoftmax40 (y : (⟨S100000x40, .f32⟩ : BufTy).Contents (Elt F)) : (⟨S100000x40, .f32⟩ : BufTy).Contents (Elt F) :=
  subf (hostShift40 y) (broadcastInDim S100000x40 ![0, 1] bcast_S100000x1_S100000x40_0_1 (Host.log (broadcastInDim S100000x1 ![0] bcast_S100000_S100000x1_0
    (Host.reduceAdd (Host.exp (hostShift40 y)) (constant S_ .f32 0x00000000#32) reducesTo_S100000x40_S100000_d1 h_S_))))

/-- The three layers, as the host composes them. -/
def refNet (x : (⟨S100000x128, .f32⟩ : BufTy).Contents (Elt F)) (ei : (⟨S2x1200000, .i32⟩ : BufTy).Contents (Elt F))
    (w1 : (⟨S128x64, .f32⟩ : BufTy).Contents (Elt F)) (b1 : (⟨S64, .f32⟩ : BufTy).Contents (Elt F))
    (w2 : (⟨S64x64, .f32⟩ : BufTy).Contents (Elt F)) (b2 : (⟨S64, .f32⟩ : BufTy).Contents (Elt F))
    (w3 : (⟨S64x40, .f32⟩ : BufTy).Contents (Elt F)) (b3 : (⟨S40, .f32⟩ : BufTy).Contents (Elt F)) :
    (⟨S100000x40, .f32⟩ : BufTy).Contents (Elt F) :=
  hostLogSoftmax40 (addf (aggregate40 (srcAll ei) (dstAll ei) (edgeNorm (srcAll ei) (dstAll ei)) (Host.dotGeneral dot_S100000x64_S64x40_S100000x40_1_0_0_1_n_n none (hostRelu64 (aggregate64 (srcAll ei) (dstAll ei) (edgeNorm (srcAll ei) (dstAll ei)) (Host.dotGeneral dot_S100000x64_S64x64_S100000x64_1_0_0_1_n_n none (hostRelu64 (aggregate64 (srcAll ei) (dstAll ei) (edgeNorm (srcAll ei) (dstAll ei)) (Host.dotGeneral dot_S100000x128_S128x64_S100000x64_1_0_0_1_n_n none x w1)) b1) w2)) b2) w3))
    (broadcastInDim S100000x40 ![0, 1] bcast_S1x40_S100000x40_0_1 (broadcastInDim S1x40 ![1] bcast_S40_S1x40_1 b3)))

end Cert.ReferenceIdeal.Bridge

end
-- ==== Proof.RefValue.lean ====
/-
  The idealized reference's result as a function of its arguments.

  The reference is one line of 214 host operations: three times the same layer, then the maximum with zero (twice) or the
  row-wise log-softmax (last). `refNet` (module RefNet) writes that composition out with the graph side named;
  `ref_after` says the line of operations leaves exactly it in the result buffer, whatever the buffers held at the start.
-/
import proofs.«159919_j25795573580199_1_alg».proof.Proof.ReferenceRun
import proofs.«159919_j25795573580199_1_alg».proof.Proof.GraphR
import proofs.«159919_j25795573580199_1_alg».proof.Proof.RefNet

set_option maxRecDepth 16384

noncomputable section

namespace Cert.ReferenceIdeal.Bridge

open Idealize.ShloMosaic Idealize.ShloMosaic.TcCoe Idealize.ShloMosaic.StableHlo
open Cert.ReferenceIdeal Cert.ReferenceIdeal.Gen Cert.ReferenceIdeal.Graph Cert.ReferenceIdeal.Value

variable {F : FTy → Type} [FloatOps F]

/-- A line of operations run in two parts. -/
theorem after_take_drop (n : Nat) : ∀ (l : List (HloOp τ sig (Elt F))) (W : Valuation τ sig (Elt F)),
    after l W = after (l.drop n) (after (l.take n) W) := by
  induction n with
  | zero => intro l W; rfl
  | succ n ih =>
    intro l W
    match l with
    | [] => rfl
    | op :: l' =>
      simp only [List.take_succ_cons, List.drop_succ_cons, after_cons]
      exact ih l' _

/-! ## The first layer: operations 0 … 69 -/

set_option maxHeartbeats 40000000 in
theorem layer1_out (W : Valuation τ sig (Elt F)) : after (ops.take 70) W (Proc.devRef .tc main_v54)
    = hostRelu64 (aggregate64 (srcAll (W (Proc.devRef .tc main_arg1))) (dstAll (W (Proc.devRef .tc main_arg1))) (edgeNorm (srcAll (W (Proc.devRef .tc main_arg1))) (dstAll (W (Proc.devRef .tc main_arg1)))) (Host.dotGeneral dot_S100000x128_S128x64_S100000x64_1_0_0_1_n_n none (W (Proc.devRef .tc main_arg0)) (W (Proc.devRef .tc main_arg2)))) (W (Proc.devRef .tc main_arg3)) := by
  simp only [ops, List.take_succ_cons, List.take_zero, List.drop_succ_cons, List.drop_zero]
  host_results
  repeat rw [edgesThenLoops_eq]
  try host_results
  rfl

set_option maxHeartbeats 40000000 in
theorem layer1_src (W : Valuation τ sig (Elt F)) : after (ops.take 70) W (Proc.devRef .tc main_v1) = (shapeCast S1200000 (extractStridedSlice S1x1200000 ![0, 0] (W (Proc.devRef .tc main_arg1)) slices_S2x1200000_S1x1200000_0_0) shapeCasts_S1x1200000_S1200000) := by
  simp only [ops, List.take_succ_cons, List.take_zero, List.drop_succ_cons, List.drop_zero]
  host_results
  repeat rw [edgesThenLoops_eq]
  try host_results
  rfl

set_option maxHeartbeats 40000000 in
theorem layer1_dst (W : Valuation τ sig (Elt F)) : after (ops.take 70) W (Proc.devRef .tc main_v3) = (shapeCast S1200000 (extractStridedSlice S1x1200000 ![1, 0] (W (Proc.devRef .tc main_arg1)) slices_S2x1200000_S1x1200000_1_0) shapeCasts_S1x1200000_S1200000) := by
  simp only [ops, List.take_succ_cons, List.take_zero, List.drop_succ_cons, List.drop_zero]
  host_results
  repeat rw [edgesThenLoops_eq]
  try host_results
  rfl

set_option maxHeartbeats 40000000 in
theorem layer1_arg4 (W : Valuation τ sig (Elt F)) : after (ops.take 70) W (Proc.devRef .tc main_arg4) = W (Proc.devRef .tc main_arg4) := by
  simp only [ops, List.take_succ_cons, List.take_zero, List.drop_succ_cons, List.drop_zero]
  host_results

set_option maxHeartbeats 40000000 in
theorem layer1_arg5 (W : Valuation τ sig (Elt F)) : after (ops.take 70) W (Proc.devRef .tc main_arg5) = W (Proc.devRef .tc main_arg5) := by
  simp only [ops, List.take_succ_cons, List.take_zero, List.drop_succ_cons, List.drop_zero]
  host_results

set_option maxHeartbeats 40000000 in
theorem layer1_arg6 (W : Valuation τ sig (Elt F)) : after (ops.take 70) W (Proc.devRef .tc main_arg6) = W (Proc.devRef .tc main_arg6) := by
  simp only [ops, List.take_succ_cons, List.take_zero, List.drop_succ_cons, List.drop_zero]
  host_results

set_option maxHeartbeats 40000000 in
theorem layer1_arg7 (W : Valuation τ sig (Elt F)) : after (ops.take 70) W (Proc.devRef .tc main_arg7) = W (Proc.devRef .tc main_arg7) := by
  simp only [ops, List.take_succ_cons, List.take_zero, List.drop_succ_cons, List.drop_zero]
  host_results

/-! ## The second layer: operations 70 … 135 -/

set_option maxHeartbeats 40000000 in
theorem layer2_out (W : Valuation τ sig (Elt F)) : after ((ops.drop 70).take 66) W (Proc.devRef .tc main_v105)
    = hostRelu64 (aggregate64 (edgesThenLoops (W (Proc.devRef .tc main_v1)) (iotaInDim S100000 32 0)) (edgesThenLoops (W (Proc.devRef .tc main_v3)) (iotaInDim S100000 32 0)) (edgeNorm (edgesThenLoops (W (Proc.devRef .tc main_v1)) (iotaInDim S100000 32 0)) (edgesThenLoops (W (Proc.devRef .tc main_v3)) (iotaInDim S100000 32 0))) (Host.dotGeneral dot_S100000x64_S64x64_S100000x64_1_0_0_1_n_n none (W (Proc.devRef .tc main_v54)) (W (Proc.devRef .tc main_arg4)))) (W (Proc.devRef .tc main_arg5)) := by
  simp only [ops, List.take_succ_cons, List.take_zero, List.drop_succ_cons, List.drop_zero]
  host_results
  repeat rw [edgesThenLoops_eq]
  try host_results
  rfl

set_option maxHeartbeats 40000000 in
theorem layer2_v1 (W : Valuation τ sig (Elt F)) : after ((ops.drop 70).take 66) W (Proc.devRef .tc main_v1) = W (Proc.devRef .tc main_v1) := by
  simp only [ops, List.take_succ_cons, List.take_zero, List.drop_succ_cons, List.drop_zero]
  host_results

set_option maxHeartbeats 40000000 in
theorem layer2_v3 (W : Valuation τ sig (Elt F)) : after ((ops.drop 70).take 66) W (Proc.devRef .tc main_v3) = W (Proc.devRef .tc main_v3) := by
  simp only [ops, List.take_succ_cons, List.take_zero, List.drop_succ_cons, List.drop_zero]
  host_results

set_option maxHeartbeats 40000000 in
theorem layer2_arg6 (W : Valuation τ sig (Elt F)) : after ((ops.drop 70).take 66) W (Proc.devRef .tc main_arg6) = W (Proc.devRef .tc main_arg6) := by
  simp only [ops, List.take_succ_cons, List.take_zero, List.drop_succ_cons, List.drop_zero]
  host_results

set_option maxHeartbeats 40000000 in
theorem layer2_arg7 (W : Valuation τ sig (Elt F)) : after ((ops.drop 70).take 66) W (Proc.devRef .tc main_arg7) = W (Proc.devRef .tc main_arg7) := by
  simp only [ops, List.take_succ_cons, List.take_zero, List.drop_succ_cons, List.drop_zero]
  host_results

/-! ## The third layer's logits: operations 136 … 198 -/

set_option maxHeartbeats 40000000 in
theorem layer3_logits (W : Valuation τ sig (Elt F)) : after (((ops.drop 70).drop 66).take 63) W (Proc.devRef .tc main_v155)
    = addf (aggregate40 (edgesThenLoops (W (Proc.devRef .tc main_v1)) (iotaInDim S100000 32 0)) (edgesThenLoops (W (Proc.devRef .tc main_v3)) (iotaInDim S100000 32 0)) (edgeNorm (edgesThenLoops (W (Proc.devRef .tc main_v1)) (iotaInDim S100000 32 0)) (edgesThenLoops (W (Proc.devRef .tc main_v3)) (iotaInDim S100000 32 0))) (Host.dotGeneral dot_S100000x64_S64x40_S100000x40_1_0_0_1_n_n none (W (Proc.devRef .tc main_v105)) (W (Proc.devRef .tc main_arg6))))
        (broadcastInDim S100000x40 ![0, 1] bcast_S1x40_S100000x40_0_1 (broadcastInDim S1x40 ![1] bcast_S40_S1x40_1 (W (Proc.devRef .tc main_arg7)))) := by
  simp only [ops, List.take_succ_cons, List.take_zero, List.drop_succ_cons, List.drop_zero]
  host_results
  repeat rw [edgesThenLoops_eq]
  try host_results
  rfl

/-! ## The row-wise log-softmax: operations 199 … 213 -/

/-- A value stored in a typed buffer and read back is the value. -/
theorem stored_read_back {T : BufTy} (x : TRef sig T) (v : T.Contents (Elt F)) : x.ofBuf (x.toBuf v) = v := by
  cases x with
  | mk r h hd hu => cases h; rfl

/-- The call's argument buffer holds values of the argument's type: reading it at that type changes nothing. -/
theorem read_logits (v : (⟨S100000x40, .f32⟩ : BufTy).Contents (Elt F)) :
    (TRef.of (sig := sig) (T := ⟨S100000x40, .f32⟩) main_v155).ofBuf (Val := Elt F) v = v := rfl

/-- The call's result buffer holds values of the result's type: storing into it at that type changes nothing. -/
theorem store_result (v : (⟨S100000x40, .f32⟩ : BufTy).Contents (Elt F)) :
    (TRef.of (sig := sig) (T := ⟨S100000x40, .f32⟩) main_v156).toBuf (Val := Elt F) v = v := rfl

set_option maxHeartbeats 40000000 in
theorem layer3_call (W : Valuation τ sig (Elt F)) : after (((ops.drop 70).drop 66).drop 63) W (Proc.devRef .tc main_v156)
    = hostLogSoftmax40 (W (Proc.devRef .tc main_v155)) := by
  simp only [ops, List.take_succ_cons, List.take_zero, List.drop_succ_cons, List.drop_zero]
  host_results
  simp only [stored_read_back, read_logits, store_result]
  rfl

/-! ## The layers composed -/

/-- The line of operations leaves the composed network in the result buffer. -/
theorem ref_after (W : Valuation τ sig (Elt F)) :
    after ops W (Proc.devRef .tc main_v156)
      = refNet (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  rw [after_take_drop 70 ops W, after_take_drop 66 (ops.drop 70) (after (ops.take 70) W),
    after_take_drop 63 ((ops.drop 70).drop 66) (after ((ops.drop 70).take 66) (after (ops.take 70) W))]
  rw [layer3_call, layer3_logits, layer2_out, layer2_v1, layer2_v3, layer2_arg6, layer2_arg7,
    layer1_out, layer1_src, layer1_dst, layer1_arg4, layer1_arg5, layer1_arg6, layer1_arg7]
  rfl

end Cert.ReferenceIdeal.Bridge

end
-- ==== Proof.RefDense.lean ====
/-
  The reference's dense stages, index by index: the host's three matrix products, its bias-and-maximum and its row-wise
  log-softmax are the specification's functions of the same arrays.

  A product entry is the sum over the contracted coordinate. A length-N bias broadcast first to 1×N and then over the
  rows reads, at (r, q), the bias at q — the same as the bias reshaped to one row and read at (0, q). The host's row
  maximum is the fold of max over the row from minus infinity, and taking the maximum of that with minus infinity again
  changes nothing; its row sum is the sum over the row added to zero.
-/
import proofs.«159919_j25795573580199_1_alg».proof.Proof.RefNet
import proofs.«159919_j25795573580199_1_alg».proof.Proof.GcnSpec
import proofs.«159919_j25795573580199_1_alg».proof.Proof.LibPlainDot
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

open scoped BigOperators

namespace Cert.ReferenceIdeal.Bridge

open Idealize.ShloMosaic Idealize.ShloMosaic.TcCoe Idealize.ShloMosaic.ValueIdx
open Cert.ReferenceIdeal Cert.ReferenceIdeal.Gen

/-! ## The products -/

theorem dot1_eq (x : FVec Ideal S100000x128 .f32) (w : FVec Ideal S128x64 .f32) :
    Host.dotGeneral dot_S100000x128_S128x64_S100000x64_1_0_0_1_n_n none x w = GcnSpec.rowsTimes 100000 128 64 x w := by
  funext i
  obtain ⟨r, q, rfl⟩ : ∃ (r : Fin 100000) (q : Fin 64), i = ix2 r q := ⟨i 0, i 1, eq_ix2 i⟩
  exact PlainDot.dotGeneral_apply (M := 100000) (K := 128) (N := 64) none _ x w r q

theorem dot2_eq (x : FVec Ideal S100000x64 .f32) (w : FVec Ideal S64x64 .f32) :
    Host.dotGeneral dot_S100000x64_S64x64_S100000x64_1_0_0_1_n_n none x w = GcnSpec.rowsTimes 100000 64 64 x w := by
  funext i
  obtain ⟨r, q, rfl⟩ : ∃ (r : Fin 100000) (q : Fin 64), i = ix2 r q := ⟨i 0, i 1, eq_ix2 i⟩
  exact PlainDot.dotGeneral_apply (M := 100000) (K := 64) (N := 64) none _ x w r q

theorem dot3_eq (x : FVec Ideal S100000x64 .f32) (w : FVec Ideal S64x40 .f32) :
    Host.dotGeneral dot_S100000x64_S64x40_S100000x40_1_0_0_1_n_n none x w = GcnSpec.rowsTimes 100000 64 40 x w := by
  funext i
  obtain ⟨r, q, rfl⟩ : ∃ (r : Fin 100000) (q : Fin 40), i = ix2 r q := ⟨i 0, i 1, eq_ix2 i⟩
  exact PlainDot.dotGeneral_apply (M := 100000) (K := 64) (N := 40) none _ x w r q

/-! ## The bias over the rows -/

theorem biasRows64 (b : FVec Ideal S64 .f32) (r : Fin 100000) (q : Fin 64) :
    broadcastInDim S100000x64 ![0, 1] bcast_S1x64_S100000x64_0_1 (broadcastInDim S1x64 ![1] bcast_S64_S1x64_1 b) (ix2 r q) = b (ix1 q) := by
  rw [broadcastInDim_apply ![0, 1] bcast_S1x64_S100000x64_0_1 _ (ix2 r q) (ix2 (0 : Fin 1) q)
    (fun a => by match a with | ⟨0, _⟩ => rfl | ⟨1, _⟩ => rfl)]
  exact broadcastInDim_apply ![1] bcast_S64_S1x64_1 b (ix2 (0 : Fin 1) q) (ix1 q) (fun a => by match a with | ⟨0, _⟩ => rfl)

theorem biasRows40 (b : FVec Ideal S40 .f32) (r : Fin 100000) (q : Fin 40) :
    broadcastInDim S100000x40 ![0, 1] bcast_S1x40_S100000x40_0_1 (broadcastInDim S1x40 ![1] bcast_S40_S1x40_1 b) (ix2 r q) = b (ix1 q) := by
  rw [broadcastInDim_apply ![0, 1] bcast_S1x40_S100000x40_0_1 _ (ix2 r q) (ix2 (0 : Fin 1) q)
    (fun a => by match a with | ⟨0, _⟩ => rfl | ⟨1, _⟩ => rfl)]
  exact broadcastInDim_apply ![1] bcast_S40_S1x40_1 b (ix2 (0 : Fin 1) q) (ix1 q) (fun a => by match a with | ⟨0, _⟩ => rfl)

/-- The host's bias-and-maximum is the specification's, with the bias as one row. -/
theorem hostRelu64_eq (a : FVec Ideal S100000x64 .f32) (b : FVec Ideal S64 .f32) (h : (⟨1, ![64]⟩ : Shape).ShapeCasts ⟨2, ![1, 64]⟩) :
    hostRelu64 (F := Ideal) a b = GcnSpec.biasRelu 100000 64 a (shapeCast ⟨2, ![1, 64]⟩ b h) := by
  funext i
  obtain ⟨r, q, rfl⟩ : ∃ (r : Fin 100000) (q : Fin 64), i = ix2 r q := ⟨i 0, i 1, eq_ix2 i⟩
  unfold hostRelu64 GcnSpec.biasRelu
  show max (a (ix2 r q) + broadcastInDim S100000x64 ![0, 1] bcast_S1x64_S100000x64_0_1 (broadcastInDim S1x64 ![1] bcast_S64_S1x64_1 b) (ix2 r q))
      (Ideal.ofBits .f32 0x00000000#32)
    = max (a (ix2 r q) + shapeCast ⟨2, ![1, 64]⟩ b h (ix2 (0 : Fin 1) q)) (Ideal.ofBits .f32 0x00000000#32)
  rw [biasRows64, shapeCast_a_1a_apply]

end Cert.ReferenceIdeal.Bridge

end
-- ==== Proof.RefSoftmax.lean ====
/-
  The reference's row-wise log-softmax, index by index, is the specification's.

  The host's row maximum is the fold of max over the row from minus infinity, and taking the maximum of that with minus
  infinity again changes nothing; its row sum is the sum over the row added to zero; a column kept as a unit axis and
  spread over the row again reads the column's entry.
-/
import proofs.«159919_j25795573580199_1_alg».proof.Proof.RefNet
import proofs.«159919_j25795573580199_1_alg».proof.Proof.RefDense
import proofs.«159919_j25795573580199_1_alg».proof.Proof.GcnSpec
import proofs.«159919_j25795573580199_1_alg».proof.Proof.LibPlainDot
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

open scoped BigOperators

namespace Cert.ReferenceIdeal.Bridge

open Idealize.ShloMosaic Idealize.ShloMosaic.TcCoe Idealize.ShloMosaic.ValueIdx
open Cert.ReferenceIdeal Cert.ReferenceIdeal.Gen

/-! ## The log-softmax -/

theorem spreadCol40 (u : FVec Ideal S100000x1 .f32) (r : Fin 100000) (q : Fin 40) :
    broadcastInDim S100000x40 ![0, 1] bcast_S100000x1_S100000x40_0_1 u (ix2 r q) = u (ix2 r (0 : Fin 1)) :=
  broadcastInDim_apply ![0, 1] bcast_S100000x1_S100000x40_0_1 u (ix2 r q) (ix2 r (0 : Fin 1))
    (fun a => by match a with | ⟨0, _⟩ => rfl | ⟨1, _⟩ => rfl)

theorem column_apply (v : FVec Ideal S100000 .f32) (r : Fin 100000) :
    broadcastInDim S100000x1 ![0] bcast_S100000_S100000x1_0 v (ix2 r (0 : Fin 1)) = v (ix1 r) :=
  broadcastInDim_apply ![0] bcast_S100000_S100000x1_0 v (ix2 r (0 : Fin 1)) (ix1 r) (fun a => by match a with | ⟨0, _⟩ => rfl)

/-- The host's row maximum (and minus infinity, whichever is larger) is the fold of max over the row from minus infinity. -/
theorem hostRowMax (y : FVec Ideal S100000x40 .f32) (r : Fin 100000) :
    max (broadcastInDim S100000 ![] bcast_S_S100000 (constant (F := Ideal) S_ .f32 0xFF800000#32) (ix1 r))
      (Host.reduce (FloatOps.maximumf (F := Ideal) (φ := .f32)) y (constant (F := Ideal) S_ .f32 0xFF800000#32) reducesTo_S100000x40_S100000_d1 h_S_ (ix1 r))
      = GcnSpec.rowMax 100000 40 y r := by
  have hred : Shape.Reduces S100000x40 [1] S100000 := by decide
  haveI : Std.Commutative (FloatOps.maximumf (F := Ideal) (φ := .f32)) := ⟨fun a b => max_comm a b⟩
  haveI : Std.Associative (FloatOps.maximumf (F := Ideal) (φ := .f32)) := ⟨fun a b c => max_assoc a b c⟩
  rw [Host.reduce_eq_fold_single (FloatOps.maximumf (F := Ideal) (φ := .f32)) y _ reducesTo_S100000x40_S100000_d1 hred h_S_ (ix1 r)]
  have hf : (y ∘ hred.lift (ix1 r)) = fun k : Fin 40 => y (ix2 r k) := by
    funext k
    show y (hred.lift (ix1 r) k) = y (ix2 r k)
    refine congrArg y (funext fun a => Fin.ext ?_)
    match a with
    | ⟨0, _⟩ => rfl
    | ⟨1, _⟩ => rfl
  show max (Ideal.ofBits .f32 0xFF800000#32)
      ((Finset.univ : Finset (Fin 40)).fold max (Ideal.ofBits .f32 0xFF800000#32) (y ∘ hred.lift (ix1 r))) = _
  rw [hf]
  unfold GcnSpec.rowMax
  exact max_eq_right ((Finset.le_fold_max _).mpr (Or.inl le_rfl))

/-- The host's row sum is the sum over the row. -/
theorem hostRowSum (z : FVec Ideal S100000x40 .f32) (r : Fin 100000) :
    Host.reduceAdd z (constant (F := Ideal) S_ .f32 0x00000000#32) reducesTo_S100000x40_S100000_d1 h_S_ (ix1 r) = ∑ k : Fin 40, z (ix2 r k) := by
  have hred : Shape.Reduces S100000x40 [1] S100000 := by decide
  rw [hostReduceAdd_apply, Ideal.hostReduceAdd_single reducesTo_S100000x40_S100000_d1 hred z _ (ix1 r)]
  show Ideal.ofBits .f32 0x00000000#32 + _ = _
  rw [Ideal.ofBits_zero_f32, zero_add]
  refine Finset.sum_congr rfl fun k _ => congrArg z (funext fun a => Fin.ext ?_)
  match a with
  | ⟨0, _⟩ => rfl
  | ⟨1, _⟩ => rfl

/-- The host's logarithm and exponential act entry by entry. -/
theorem hostLog_apply {s : Shape} (v : FVec Ideal s .f32) (i : s.Idx) : Host.log v i = Ideal.log (v i) := rfl
theorem hostExp_apply {s : Shape} (v : FVec Ideal s .f32) (i : s.Idx) : Host.exp v i = Ideal.exp (v i) := rfl

theorem hostShift40_apply (y : FVec Ideal S100000x40 .f32) (r : Fin 100000) (q : Fin 40) :
    hostShift40 (F := Ideal) y (ix2 r q) = y (ix2 r q) - GcnSpec.rowMax 100000 40 y r := by
  unfold hostShift40
  rw [subf_apply, spreadCol40, column_apply, maximumf_apply, hostRowMax]

theorem hostLogSoftmax40_apply (y : FVec Ideal S100000x40 .f32) (r : Fin 100000) (q : Fin 40) :
    hostLogSoftmax40 (F := Ideal) y (ix2 r q) = GcnSpec.logSoftmaxRows 100000 40 y (ix2 r q) := by
  unfold hostLogSoftmax40
  rw [subf_apply, hostShift40_apply, spreadCol40, hostLog_apply, column_apply, hostRowSum]
  show _ = (y (ix2 r q) - GcnSpec.rowMax 100000 40 y r) - Ideal.log (∑ k : Fin 40, Ideal.exp (y (ix2 r k) - GcnSpec.rowMax 100000 40 y r))
  refine congrArg (fun s => (y (ix2 r q) - GcnSpec.rowMax 100000 40 y r) - Ideal.log s) (Finset.sum_congr rfl fun k _ => ?_)
  rw [hostExp_apply, hostShift40_apply]

/-- The host's bias and log-softmax is the specification's, with the bias as one row. -/
theorem hostLogSoftmax40_eq (a : FVec Ideal S100000x40 .f32) (b : FVec Ideal S40 .f32) (h : (⟨1, ![40]⟩ : Shape).ShapeCasts ⟨2, ![1, 40]⟩) :
    hostLogSoftmax40 (F := Ideal) (addf a (broadcastInDim S100000x40 ![0, 1] bcast_S1x40_S100000x40_0_1 (broadcastInDim S1x40 ![1] bcast_S40_S1x40_1 b)))
      = GcnSpec.logSoftmaxRows 100000 40 (GcnSpec.addRow 100000 40 a (shapeCast ⟨2, ![1, 40]⟩ b h)) := by
  have hy : (addf a (broadcastInDim S100000x40 ![0, 1] bcast_S1x40_S100000x40_0_1 (broadcastInDim S1x40 ![1] bcast_S40_S1x40_1 b)) : FVec Ideal S100000x40 .f32)
      = GcnSpec.addRow 100000 40 a (shapeCast ⟨2, ![1, 40]⟩ b h) := by
    funext i
    obtain ⟨r, q, rfl⟩ : ∃ (r : Fin 100000) (q : Fin 40), i = ix2 r q := ⟨i 0, i 1, eq_ix2 i⟩
    rw [addf_apply, biasRows40]
    show a (ix2 r q) + b (ix1 q) = a (ix2 r q) + shapeCast ⟨2, ![1, 40]⟩ b h (ix2 (0 : Fin 1) q)
    rw [shapeCast_a_1a_apply]
  rw [hy]
  funext i
  obtain ⟨r, q, rfl⟩ : ∃ (r : Fin 100000) (q : Fin 40), i = ix2 r q := ⟨i 0, i 1, eq_ix2 i⟩
  exact hostLogSoftmax40_apply _ r q

end Cert.ReferenceIdeal.Bridge

end
-- ==== Proof.Bridge.lean ====
/-
  The two programs compute one function of the arguments.

  The kernel's result is the specification's dense stages composed with ITS spelling of the graph operations (edge lists
  with self loops, per-edge normalisation, aggregation along the edges); the reference's is its own host operations
  composed with ITS spelling of the same graph operations. The two spellings of each graph operation are the same
  operation (the same gather and scatter dimension numbers, the same constants), and the reference's products,
  bias-and-maximum and log-softmax are the specification's stages: so the two results are equal, array for array.
  No finiteness of the inputs is used: no sum is regrouped across a product.
-/
import proofs.«159919_j25795573580199_1_alg».proof.Proof.KernelFold
import proofs.«159919_j25795573580199_1_alg».proof.Proof.RefDense
import proofs.«159919_j25795573580199_1_alg».proof.Proof.RefSoftmax

set_option maxRecDepth 16384

noncomputable section

namespace Cert.Proof.Bridge

open Idealize.ShloMosaic Idealize.ShloMosaic.TcCoe

/-! ## The graph operations are spelt alike in the two programs -/

theorem srcAll_eq (ei : (⟨Cert.KernelIdeal.S2x1200000, .i32⟩ : BufTy).Contents (Elt Ideal)) :
    Cert.KernelIdeal.Graph.srcAll (F := Ideal) ei = Cert.ReferenceIdeal.Graph.srcAll (F := Ideal) ei := rfl
theorem dstAll_eq (ei : (⟨Cert.KernelIdeal.S2x1200000, .i32⟩ : BufTy).Contents (Elt Ideal)) :
    Cert.KernelIdeal.Graph.dstAll (F := Ideal) ei = Cert.ReferenceIdeal.Graph.dstAll (F := Ideal) ei := rfl
theorem edgeNorm_eq (s d : (⟨Cert.KernelIdeal.S1300000, .i32⟩ : BufTy).Contents (Elt Ideal)) :
    Cert.KernelIdeal.Graph.edgeNorm (F := Ideal) s d = Cert.ReferenceIdeal.Graph.edgeNorm (F := Ideal) s d := rfl
theorem aggregate64_eq (s d : (⟨Cert.KernelIdeal.S1300000, .i32⟩ : BufTy).Contents (Elt Ideal)) (n : (⟨Cert.KernelIdeal.S1300000, .f32⟩ : BufTy).Contents (Elt Ideal))
    (h : (⟨Cert.KernelIdeal.S100000x64, .f32⟩ : BufTy).Contents (Elt Ideal)) :
    Cert.KernelIdeal.Graph.aggregate64 (F := Ideal) s d n h = Cert.ReferenceIdeal.Graph.aggregate64 (F := Ideal) s d n h := rfl
theorem aggregate40_eq (s d : (⟨Cert.KernelIdeal.S1300000, .i32⟩ : BufTy).Contents (Elt Ideal)) (n : (⟨Cert.KernelIdeal.S1300000, .f32⟩ : BufTy).Contents (Elt Ideal))
    (h : (⟨Cert.KernelIdeal.S100000x40, .f32⟩ : BufTy).Contents (Elt Ideal)) :
    Cert.KernelIdeal.Graph.aggregate40 (F := Ideal) s d n h = Cert.ReferenceIdeal.Graph.aggregate40 (F := Ideal) s d n h := rfl

/-! ## The reference's network is the specification's stages over its graph operations -/

theorem refNet_eq (x : (⟨Cert.KernelIdeal.S100000x128, .f32⟩ : BufTy).Contents (Elt Ideal)) (ei : (⟨Cert.KernelIdeal.S2x1200000, .i32⟩ : BufTy).Contents (Elt Ideal))
    (w1 : (⟨Cert.KernelIdeal.S128x64, .f32⟩ : BufTy).Contents (Elt Ideal)) (b1 : (⟨Cert.KernelIdeal.S64, .f32⟩ : BufTy).Contents (Elt Ideal))
    (w2 : (⟨Cert.KernelIdeal.S64x64, .f32⟩ : BufTy).Contents (Elt Ideal)) (b2 : (⟨Cert.KernelIdeal.S64, .f32⟩ : BufTy).Contents (Elt Ideal))
    (w3 : (⟨Cert.KernelIdeal.S64x40, .f32⟩ : BufTy).Contents (Elt Ideal)) (b3 : (⟨Cert.KernelIdeal.S40, .f32⟩ : BufTy).Contents (Elt Ideal)) :
    Cert.ReferenceIdeal.Bridge.refNet (F := Ideal) x ei w1 b1 w2 b2 w3 b3
      = GcnSpec.logSoftmaxRows 100000 40 (GcnSpec.addRow 100000 40 (Cert.ReferenceIdeal.Graph.aggregate40 (Cert.ReferenceIdeal.Graph.srcAll ei) (Cert.ReferenceIdeal.Graph.dstAll ei) (Cert.ReferenceIdeal.Graph.edgeNorm (Cert.ReferenceIdeal.Graph.srcAll ei) (Cert.ReferenceIdeal.Graph.dstAll ei)) (GcnSpec.rowsTimes 100000 64 40 (GcnSpec.biasRelu 100000 64 (Cert.ReferenceIdeal.Graph.aggregate64 (Cert.ReferenceIdeal.Graph.srcAll ei) (Cert.ReferenceIdeal.Graph.dstAll ei) (Cert.ReferenceIdeal.Graph.edgeNorm (Cert.ReferenceIdeal.Graph.srcAll ei) (Cert.ReferenceIdeal.Graph.dstAll ei)) (GcnSpec.rowsTimes 100000 64 64 (GcnSpec.biasRelu 100000 64 (Cert.ReferenceIdeal.Graph.aggregate64 (Cert.ReferenceIdeal.Graph.srcAll ei) (Cert.ReferenceIdeal.Graph.dstAll ei) (Cert.ReferenceIdeal.Graph.edgeNorm (Cert.ReferenceIdeal.Graph.srcAll ei) (Cert.ReferenceIdeal.Graph.dstAll ei)) (GcnSpec.rowsTimes 100000 128 64 x w1)) (shapeCast Cert.KernelIdeal.S1x64 b1 Cert.KernelIdeal.Gen.shapeCasts_S64_S1x64)) w2)) (shapeCast Cert.KernelIdeal.S1x64 b2 Cert.KernelIdeal.Gen.shapeCasts_S64_S1x64)) w3)) (shapeCast Cert.KernelIdeal.S1x40 b3 Cert.KernelIdeal.Gen.shapeCasts_S40_S1x40)) := by
  unfold Cert.ReferenceIdeal.Bridge.refNet
  rw [Cert.ReferenceIdeal.Bridge.dot1_eq, Cert.ReferenceIdeal.Bridge.hostRelu64_eq _ _ Cert.KernelIdeal.Gen.shapeCasts_S64_S1x64,
    Cert.ReferenceIdeal.Bridge.dot2_eq, Cert.ReferenceIdeal.Bridge.hostRelu64_eq _ _ Cert.KernelIdeal.Gen.shapeCasts_S64_S1x64,
    Cert.ReferenceIdeal.Bridge.dot3_eq, Cert.ReferenceIdeal.Bridge.hostLogSoftmax40_eq _ _ Cert.KernelIdeal.Gen.shapeCasts_S40_S1x40]

/-! ## The two networks -/

theorem nets_agree (x : (⟨Cert.KernelIdeal.S100000x128, .f32⟩ : BufTy).Contents (Elt Ideal)) (ei : (⟨Cert.KernelIdeal.S2x1200000, .i32⟩ : BufTy).Contents (Elt Ideal))
    (w1 : (⟨Cert.KernelIdeal.S128x64, .f32⟩ : BufTy).Contents (Elt Ideal)) (b1 : (⟨Cert.KernelIdeal.S64, .f32⟩ : BufTy).Contents (Elt Ideal))
    (w2 : (⟨Cert.KernelIdeal.S64x64, .f32⟩ : BufTy).Contents (Elt Ideal)) (b2 : (⟨Cert.KernelIdeal.S64, .f32⟩ : BufTy).Contents (Elt Ideal))
    (w3 : (⟨Cert.KernelIdeal.S64x40, .f32⟩ : BufTy).Contents (Elt Ideal)) (b3 : (⟨Cert.KernelIdeal.S40, .f32⟩ : BufTy).Contents (Elt Ideal)) :
    GcnSpec.logSoftmaxRows 100000 40 (GcnSpec.addRow 100000 40 (Cert.KernelIdeal.Graph.aggregate40 (Cert.KernelIdeal.Graph.srcAll ei) (Cert.KernelIdeal.Graph.dstAll ei) (Cert.KernelIdeal.Graph.edgeNorm (Cert.KernelIdeal.Graph.srcAll ei) (Cert.KernelIdeal.Graph.dstAll ei)) (GcnSpec.rowsTimes 100000 64 40 (GcnSpec.biasRelu 100000 64 (Cert.KernelIdeal.Graph.aggregate64 (Cert.KernelIdeal.Graph.srcAll ei) (Cert.KernelIdeal.Graph.dstAll ei) (Cert.KernelIdeal.Graph.edgeNorm (Cert.KernelIdeal.Graph.srcAll ei) (Cert.KernelIdeal.Graph.dstAll ei)) (GcnSpec.rowsTimes 100000 64 64 (GcnSpec.biasRelu 100000 64 (Cert.KernelIdeal.Graph.aggregate64 (Cert.KernelIdeal.Graph.srcAll ei) (Cert.KernelIdeal.Graph.dstAll ei) (Cert.KernelIdeal.Graph.edgeNorm (Cert.KernelIdeal.Graph.srcAll ei) (Cert.KernelIdeal.Graph.dstAll ei)) (GcnSpec.rowsTimes 100000 128 64 x w1)) (shapeCast Cert.KernelIdeal.S1x64 b1 Cert.KernelIdeal.Gen.shapeCasts_S64_S1x64)) w2)) (shapeCast Cert.KernelIdeal.S1x64 b2 Cert.KernelIdeal.Gen.shapeCasts_S64_S1x64)) w3)) (shapeCast Cert.KernelIdeal.S1x40 b3 Cert.KernelIdeal.Gen.shapeCasts_S40_S1x40))
      = Cert.ReferenceIdeal.Bridge.refNet (F := Ideal) x ei w1 b1 w2 b2 w3 b3 := by
  rw [refNet_eq]
  simp only [srcAll_eq, dstAll_eq, edgeNorm_eq, aggregate64_eq, aggregate40_eq]

end Cert.Proof.Bridge

end
-- ==== Proof.lean ====
/-
  A three-layer graph convolution: row-blocked kernels for the dense stages against a plain reference.

  Both programs compute, from node features x, an edge list and three weight matrices and biases,
      h₁ = max(Â(x·W₁) + b₁, 0),  h₂ = max(Â(h₁·W₂) + b₂, 0),  out = log-softmax along rows of Â(h₂·W₃) + b₃,
  where Â gathers each edge's source row, scales it by the edge's symmetric normalisation (one over the square roots of
  the two endpoints' in-degrees, self loops included) and sums it into the destination row. The kernel program runs the
  products, the bias-and-maximum and the bias-and-log-softmax as launches over ten blocks of 10000 rows and leaves Â to
  the host; the reference does everything on the host. At the ideal values a block of a product, of a row-wise
  operation, is the same block of the whole-array operation, the narrowing to bfloat16 is the identity, and both
  programs apply the very same gathers and scatters: the two results are one function of the arguments.
  The pass that printed the idealized kernel rewrote nothing, so there is nothing to preserve.
-/
import proofs.«159919_j25795573580199_1_alg».proof.Defs
import proofs.«159919_j25795573580199_1_alg».proof.Proof.Gen.Kernel
import proofs.«159919_j25795573580199_1_alg».proof.Proof.Gen.Kernel.Skeleton
import proofs.«159919_j25795573580199_1_alg».proof.Proof.Gen.Kernel.Launch
import proofs.«159919_j25795573580199_1_alg».proof.Proof.Gen.Kernel.Points
import proofs.«159919_j25795573580199_1_alg».proof.Proof.Gen.Kernel.Frame
import proofs.«159919_j25795573580199_1_alg».proof.Proof.Gen.KernelIdeal
import proofs.«159919_j25795573580199_1_alg».proof.Proof.Gen.KernelIdeal.Skeleton
import proofs.«159919_j25795573580199_1_alg».proof.Proof.Gen.KernelIdeal.Launch
import proofs.«159919_j25795573580199_1_alg».proof.Proof.Gen.KernelIdeal.Points
import proofs.«159919_j25795573580199_1_alg».proof.Proof.Gen.KernelIdeal.Frame
import proofs.«159919_j25795573580199_1_alg».proof.Proof.Gen.ReferenceIdeal
import proofs.«159919_j25795573580199_1_alg».proof.Proof.Gen.Pre_finite_inputs
import proofs.«159919_j25795573580199_1_alg».proof.Proof.KernelRun
import proofs.«159919_j25795573580199_1_alg».proof.Proof.KernelFold
import proofs.«159919_j25795573580199_1_alg».proof.Proof.ReferenceRun
import proofs.«159919_j25795573580199_1_alg».proof.Proof.RefValue
import proofs.«159919_j25795573580199_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs, and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- The idealized kernel runs, and leaves its arguments as launched. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs, and leaves its arguments as launched: its run, with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both idealized programs run and end with the same result array: the
    kernel's is its last segment boundary's contents at the result buffer, which is the network of its arguments; the
    reference's line of operations leaves the network of ITS arguments, which are the same arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W10 m ρ c (Proc.devRef .tc Cert.KernelIdeal.main_v94),
    Cert.KernelIdeal.Bridge.run_result (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Bridge.ref_after (F := Ideal) (StableHlo.launchContents m' c)).trans ?_
  refine Eq.trans ?_ (Cert.KernelIdeal.Bridge.w10_v94 m ρ c).symm
  obtain ⟨e0, e1, e2, e3, e4, e5, e6, e7⟩ := hagree c
  refine Eq.trans ?_ (Cert.Proof.Bridge.nets_agree (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).symm
  show Cert.ReferenceIdeal.Bridge.refNet (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)) = _
  rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
